-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x20 : Shape := ⟨2, ![200000, 20]⟩
abbrev S100000x21 : Shape := ⟨2, ![100000, 21]⟩
abbrev S2000000 : Shape := ⟨1, ![2000000]⟩
abbrev S20x64 : Shape := ⟨2, ![20, 64]⟩
abbrev S21x64 : Shape := ⟨2, ![21, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S200000x20 : S_.BroadcastsInDim S200000x20 (![] : Fin 0 → Fin S200000x20.rank)
  reducesTo_S200000x20_S_d0_1 : S200000x20.ReducesTo [0, 1] S_
  h_S_ : 0 < S_.numel
  bcast_S_S100000x21 : S_.BroadcastsInDim S100000x21 (![] : Fin 0 → Fin S100000x21.rank)
  reducesTo_S100000x21_S_d0_1 : S100000x21.ReducesTo [0, 1] S_
  bcast_S_S20x64 : S_.BroadcastsInDim S20x64 (![] : Fin 0 → Fin S20x64.rank)
  reducesTo_S20x64_S_d0_1 : S20x64.ReducesTo [0, 1] S_
  bcast_S_S21x64 : S_.BroadcastsInDim S21x64 (![] : Fin 0 → Fin S21x64.rank)
  reducesTo_S21x64_S_d0_1 : S21x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S64x32 .f32) (main_arg14 : FVec F S64x32 .f32) (main_arg15 : FVec F S32 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S64x32 .f32 := Host.absf main_arg13
  let main_cst_20 : FVec F S_ .f32 := constant S_ .f32 0x7F800000#32
  let main_v55 : FVec F S64x32 .f32 := broadcastInDim S64x32 ![] bcast_S_S64x32 main_cst_20
  let main_v56 : IVec S64x32 1 := cmpf .olt main_v54 main_v55
  let main_c_21 : IVec S_ 1 := constantI S_ 1 1#1
  let main_v57 : IVec S_ 1 := (fun x v => Host.reduce IntOp.andi x v reducesTo_S64x32_S_d0_1 h_S_) main_v56 main_c_21
  let main_v58 : IVec S_ 1 := andi main_v53 main_v57
  let main_v59 : FVec F S64x32 .f32 := Host.absf main_arg14
  let main_cst_22 : FVec F S_ .f32 := constant S_ .f32 0x7F800000#32
  let main_v60 : FVec F S64x32 .f32 := broadcastInDim S64x32 ![] bcast_S_S64x32 main_cst_22
  let main_v61 : IVec S64x32 1 := cmpf .olt main_v59 main_v60
  let main_c_23 : IVec S_ 1 := constantI S_ 1 1#1
  let main_v62 : IVec S_ 1 := (fun x v => Host.reduce IntOp.andi x v reducesTo_S64x32_S_d0_1 h_S_) main_v61 main_c_23
  let main_v63 : IVec S_ 1 := andi main_v58 main_v62
  let main_v64 : FVec F S32 .f32 := Host.absf main_arg15
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_v63 main_v67

def fn_part2 {F : FTy → Type} [FloatOps F] (main_arg9 : FVec F S64 .f32) (main_arg10 : FVec F S64x32 .f32) (main_arg11 : FVec F S64x32 .f32) (main_arg12 : FVec F S32 .f32) (main_arg13 : FVec F S64x32 .f32) (main_arg14 : FVec F S64x32 .f32) (main_arg15 : FVec F S32 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x32 .f32 := Host.absf main_arg10
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S64x32 .f32 := Host.absf main_arg11
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg13 main_arg14 main_arg15 main_v48 main_v49 main_v50

def fn_part1 {F : FTy → Type} [FloatOps F] (main_arg6 : FVec F S64 .f32) (main_arg7 : FVec F S21x64 .f32) (main_arg8 : FVec F S20x64 .f32) (main_arg9 : FVec F S64 .f32) (main_arg10 : FVec F S64x32 .f32) (main_arg11 : FVec F S64x32 .f32) (main_arg12 : FVec F S32 .f32) (main_arg13 : FVec F S64x32 .f32) (main_arg14 : FVec F S64x32 .f32) (main_arg15 : FVec F S32 .f32) (main_v13 : IVec S_ 1) (main_v16 : IVec S21x64 1) : IVec S_ 1 :=
  let main_c_5 : IVec S_ 1 := constantI S_ 1 1#1
  let main_v17 : IVec S_ 1 := (fun x v => Host.reduce IntOp.andi x v reducesTo_S21x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S21x64 .f32 := Host.absf main_arg7
  let main_cst_8 : FVec F S_ .f32 := constant S_ .f32 0x7F800000#32
  let main_v25 : FVec F S21x64 .f32 := broadcastInDim S21x64 ![] bcast_S_S21x64 main_cst_8
  let main_v26 : IVec S21x64 1 := cmpf .olt main_v24 main_v25
  let main_c_9 : IVec S_ 1 := constantI S_ 1 1#1
  let main_v27 : IVec S_ 1 := (fun x v => Host.reduce IntOp.andi x v reducesTo_S21x64_S_d0_1 h_S_) main_v26 main_c_9
  let main_v28 : IVec S_ 1 := andi main_v23 main_v27
  let main_v29 : FVec F S20x64 .f32 := Host.absf main_arg8
  let main_cst_10 : FVec F S_ .f32 := constant S_ .f32 0x7F800000#32
  let main_v30 : FVec F S20x64 .f32 := broadcastInDim S20x64 ![] bcast_S_S20x64 main_cst_10
  let main_v31 : IVec S20x64 1 := cmpf .olt main_v29 main_v30
  let main_c_11 : IVec S_ 1 := constantI S_ 1 1#1
  let main_v32 : IVec S_ 1 := (fun x v => Host.reduce IntOp.andi x v reducesTo_S20x64_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S200000x20 .f32) (main_arg1 : FVec F S100000x21 .f32) (main_arg2 : IVec S2000000 32) (main_arg3 : IVec S2000000 32) (main_arg4 : FVec F S20x64 .f32) (main_arg5 : FVec F S21x64 .f32) (main_arg6 : FVec F S64 .f32) (main_arg7 : FVec F S21x64 .f32) (main_arg8 : FVec F S20x64 .f32) (main_arg9 : FVec F S64 .f32) (main_arg10 : FVec F S64x32 .f32) (main_arg11 : FVec F S64x32 .f32) (main_arg12 : FVec F S32 .f32) (main_arg13 : FVec F S64x32 .f32) (main_arg14 : FVec F S64x32 .f32) (main_arg15 : FVec F S32 .f32) : IVec S_ 1 :=
  let main_v0 : FVec F S200000x20 .f32 := Host.absf main_arg0
  let main_cst : FVec F S_ .f32 := constant S_ .f32 0x7F800000#32
  let main_v1 : FVec F S200000x20 .f32 := broadcastInDim S200000x20 ![] bcast_S_S200000x20 main_cst
  let main_v2 : IVec S200000x20 1 := cmpf .olt main_v0 main_v1
  let main_c : IVec S_ 1 := constantI S_ 1 1#1
  let main_v3 : IVec S_ 1 := (fun x v => Host.reduce IntOp.andi x v reducesTo_S200000x20_S_d0_1 h_S_) main_v2 main_c
  let main_v4 : FVec F S100000x21 .f32 := Host.absf main_arg1
  let main_cst_0 : FVec F S_ .f32 := constant S_ .f32 0x7F800000#32
  let main_v5 : FVec F S100000x21 .f32 := broadcastInDim S100000x21 ![] bcast_S_S100000x21 main_cst_0
  let main_v6 : IVec S100000x21 1 := cmpf .olt main_v4 main_v5
  let main_c_1 : IVec S_ 1 := constantI S_ 1 1#1
  let main_v7 : IVec S_ 1 := (fun x v => Host.reduce IntOp.andi x v reducesTo_S100000x21_S_d0_1 h_S_) main_v6 main_c_1
  let main_v8 : IVec S_ 1 := andi main_v3 main_v7
  let main_v9 : FVec F S20x64 .f32 := Host.absf main_arg4
  let main_cst_2 : FVec F S_ .f32 := constant S_ .f32 0x7F800000#32
  let main_v10 : FVec F S20x64 .f32 := broadcastInDim S20x64 ![] bcast_S_S20x64 main_cst_2
  let main_v11 : IVec S20x64 1 := cmpf .olt main_v9 main_v10
  let main_c_3 : IVec S_ 1 := constantI S_ 1 1#1
  let main_v12 : IVec S_ 1 := (fun x v => Host.reduce IntOp.andi x v reducesTo_S20x64_S_d0_1 h_S_) main_v11 main_c_3
  let main_v13 : IVec S_ 1 := andi main_v8 main_v12
  let main_v14 : FVec F S21x64 .f32 := Host.absf main_arg5
  let main_cst_4 : FVec F S_ .f32 := constant S_ .f32 0x7F800000#32
  let main_v15 : FVec F S21x64 .f32 := broadcastInDim S21x64 ![] bcast_S_S21x64 main_cst_4
  let main_v16 : IVec S21x64 1 := cmpf .olt main_v14 main_v15
  fn_part1 (F := F) main_arg6 main_arg7 main_arg8 main_arg9 main_arg10 main_arg11 main_arg12 main_arg13 main_arg14 main_arg15 main_v13 main_v16
-- ==== Kernel.lean ====
abbrev S200000x20 : Shape := ⟨2, ![200000, 20]⟩
abbrev S100000x21 : Shape := ⟨2, ![100000, 21]⟩
abbrev S2000000 : Shape := ⟨1, ![2000000]⟩
abbrev S20x64 : Shape := ⟨2, ![20, 64]⟩
abbrev S21x64 : Shape := ⟨2, ![21, 64]⟩
abbrev S64 : Shape := ⟨1, ![64]⟩
abbrev S64x32 : Shape := ⟨2, ![64, 32]⟩
abbrev S32 : Shape := ⟨1, ![32]⟩
abbrev S_ : Shape := ⟨0, ![]⟩
abbrev S2000000x1 : Shape := ⟨2, ![2000000, 1]⟩
abbrev S2000000x20 : Shape := ⟨2, ![2000000, 20]⟩
abbrev S100000x20 : Shape := ⟨2, ![100000, 20]⟩
abbrev S100000x1 : Shape := ⟨2, ![100000, 1]⟩
abbrev S1x64 : Shape := ⟨2, ![1, 64]⟩
abbrev S100000x64 : Shape := ⟨2, ![100000, 64]⟩
abbrev S10000x21 : Shape := ⟨2, ![10000, 21]⟩
abbrev S10000x20 : Shape := ⟨2, ![10000, 20]⟩
abbrev S10000x64 : Shape := ⟨2, ![10000, 64]⟩
abbrev S2000000x21 : Shape := ⟨2, ![2000000, 21]⟩
abbrev S200000x21 : Shape := ⟨2, ![200000, 21]⟩
abbrev S200000x1 : Shape := ⟨2, ![200000, 1]⟩
abbrev S200000x64 : Shape := ⟨2, ![200000, 64]⟩
abbrev S2000000x64 : Shape := ⟨2, ![2000000, 64]⟩
abbrev S1x32 : Shape := ⟨2, ![1, 32]⟩
abbrev S100000x32 : Shape := ⟨2, ![100000, 32]⟩
abbrev S10000x32 : Shape := ⟨2, ![10000, 32]⟩
abbrev S200000x32 : Shape := ⟨2, ![200000, 32]⟩
abbrev S300000x32 : Shape := ⟨2, ![300000, 32]⟩

abbrev nBuf : Space → Nat
  | .hbm => 121
  | .vmem => 36
  | .smem => 0
  | _ => 0

abbrev bufTy : (tb : Table) → Fin (tcTables nBuf tb) → BufTy
  | .hbm, ⟨0, _⟩ => ⟨S200000x20, .f32⟩
  | .hbm, ⟨1, _⟩ => ⟨S100000x21, .f32⟩
  | .hbm, ⟨2, _⟩ => ⟨S2000000, .i32⟩
  | .hbm, ⟨3, _⟩ => ⟨S2000000, .i32⟩
  | .hbm, ⟨4, _⟩ => ⟨S20x64, .f32⟩
  | .hbm, ⟨5, _⟩ => ⟨S21x64, .f32⟩
  | .hbm, ⟨6, _⟩ => ⟨S64, .f32⟩
  | .hbm, ⟨7, _⟩ => ⟨S21x64, .f32⟩
  | .hbm, ⟨8, _⟩ => ⟨S20x64, .f32⟩
  | .hbm, ⟨9, _⟩ => ⟨S64, .f32⟩
  | .hbm, ⟨10, _⟩ => ⟨S64x32, .f32⟩
  | .hbm, ⟨11, _⟩ => ⟨S64x32, .f32⟩
  | .hbm, ⟨12, _⟩ => ⟨S32, .f32⟩
  | .hbm, ⟨13, _⟩ => ⟨S64x32, .f32⟩
  | .hbm, ⟨14, _⟩ => ⟨S64x32, .f32⟩
  | .hbm, ⟨15, _⟩ => ⟨S32, .f32⟩
  | .hbm, ⟨16, _⟩ => ⟨S_, .i32⟩
  | .hbm, ⟨17, _⟩ => ⟨S2000000, .i32⟩
  | .hbm, ⟨18, _⟩ => ⟨S2000000, .i1⟩
  | .hbm, ⟨19, _⟩ => ⟨S_, .i32⟩
  | .hbm, ⟨20, _⟩ => ⟨S2000000, .i32⟩
  | .hbm, ⟨21, _⟩ => ⟨S2000000, .i32⟩
  | .hbm, ⟨22, _⟩ => ⟨S2000000, .i32⟩
  | .hbm, ⟨23, _⟩ => ⟨S2000000x1, .i32⟩
  | .hbm, ⟨24, _⟩ => ⟨S2000000x20, .f32⟩
  | .hbm, ⟨25, _⟩ => ⟨S_, .f32⟩
  | .hbm, ⟨26, _⟩ => ⟨S100000x20, .f32⟩
  | .hbm, ⟨27, _⟩ => ⟨S2000000x1, .i32⟩
  | .hbm, ⟨28, _⟩ => ⟨S100000x20, .f32⟩
  | .hbm, ⟨29, _⟩ => ⟨S_, .f32⟩
  | .hbm, ⟨30, _⟩ => ⟨S2000000x1, .f32⟩
  | .hbm, ⟨31, _⟩ => ⟨S_, .f32⟩
  | .hbm, ⟨32, _⟩ => ⟨S100000x1, .f32⟩
  | .hbm, ⟨33, _⟩ => ⟨S2000000x1, .i32⟩
  | .hbm, ⟨34, _⟩ => ⟨S100000x1, .f32⟩
  | .hbm, ⟨35, _⟩ => ⟨S_, .f32⟩
  | .hbm, ⟨36, _⟩ => ⟨S100000x1, .f32⟩
  | .hbm, ⟨37, _⟩ => ⟨S100000x1, .f32⟩
  | .hbm, ⟨38, _⟩ => ⟨S100000x20, .f32⟩
  | .hbm, ⟨39, _⟩ => ⟨S100000x20, .f32⟩
  | .hbm, ⟨40, _⟩ => ⟨S1x64, .f32⟩
  | .hbm, ⟨41, _⟩ => ⟨S100000x64, .f32⟩
  | .hbm, ⟨42, _⟩ => ⟨S_, .i32⟩
  | .hbm, ⟨43, _⟩ => ⟨S2000000, .i32⟩
  | .hbm, ⟨44, _⟩ => ⟨S2000000, .i1⟩
  | .hbm, ⟨45, _⟩ => ⟨S_, .i32⟩
  | .hbm, ⟨46, _⟩ => ⟨S2000000, .i32⟩
  | .hbm, ⟨47, _⟩ => ⟨S2000000, .i32⟩
  | .hbm, ⟨48, _⟩ => ⟨S2000000, .i32⟩
  | .hbm, ⟨49, _⟩ => ⟨S2000000x1, .i32⟩
  | .hbm, ⟨50, _⟩ => ⟨S2000000x21, .f32⟩
  | .hbm, ⟨51, _⟩ => ⟨S_, .f32⟩
  | .hbm, ⟨52, _⟩ => ⟨S200000x21, .f32⟩
  | .hbm, ⟨53, _⟩ => ⟨S2000000x1, .i32⟩
  | .hbm, ⟨54, _⟩ => ⟨S200000x21, .f32⟩
  | .hbm, ⟨55, _⟩ => ⟨S_, .f32⟩
  | .hbm, ⟨56, _⟩ => ⟨S2000000x1, .f32⟩
  | .hbm, ⟨57, _⟩ => ⟨S_, .f32⟩
  | .hbm, ⟨58, _⟩ => ⟨S200000x1, .f32⟩
  | .hbm, ⟨59, _⟩ => ⟨S2000000x1, .i32⟩
  | .hbm, ⟨60, _⟩ => ⟨S200000x1, .f32⟩
  | .hbm, ⟨61, _⟩ => ⟨S_, .f32⟩
  | .hbm, ⟨62, _⟩ => ⟨S200000x1, .f32⟩
  | .hbm, ⟨63, _⟩ => ⟨S200000x1, .f32⟩
  | .hbm, ⟨64, _⟩ => ⟨S200000x21, .f32⟩
  | .hbm, ⟨65, _⟩ => ⟨S200000x21, .f32⟩
  | .hbm, ⟨66, _⟩ => ⟨S1x64, .f32⟩
  | .hbm, ⟨67, _⟩ => ⟨S200000x64, .f32⟩
  | .hbm, ⟨68, _⟩ => ⟨S_, .i32⟩
  | .hbm, ⟨69, _⟩ => ⟨S2000000, .i32⟩
  | .hbm, ⟨70, _⟩ => ⟨S2000000, .i1⟩
  | .hbm, ⟨71, _⟩ => ⟨S_, .i32⟩
  | .hbm, ⟨72, _⟩ => ⟨S2000000, .i32⟩
  | .hbm, ⟨73, _⟩ => ⟨S2000000, .i32⟩
  | .hbm, ⟨74, _⟩ => ⟨S2000000, .i32⟩
  | .hbm, ⟨75, _⟩ => ⟨S2000000x1, .i32⟩
  | .hbm, ⟨76, _⟩ => ⟨S2000000x64, .f32⟩
  | .hbm, ⟨77, _⟩ => ⟨S_, .f32⟩
  | .hbm, ⟨78, _⟩ => ⟨S100000x64, .f32⟩
  | .hbm, ⟨79, _⟩ => ⟨S2000000x1, .i32⟩
  | .hbm, ⟨80, _⟩ => ⟨S100000x64, .f32⟩
  | .hbm, ⟨81, _⟩ => ⟨S_, .f32⟩
  | .hbm, ⟨82, _⟩ => ⟨S2000000x1, .f32⟩
  | .hbm, ⟨83, _⟩ => ⟨S_, .f32⟩
  | .hbm, ⟨84, _⟩ => ⟨S100000x1, .f32⟩
  | .hbm, ⟨85, _⟩ => ⟨S2000000x1, .i32⟩
  | .hbm, ⟨86, _⟩ => ⟨S100000x1, .f32⟩
  | .hbm, ⟨87, _⟩ => ⟨S_, .f32⟩
  | .hbm, ⟨88, _⟩ => ⟨S100000x1, .f32⟩
  | .hbm, ⟨89, _⟩ => ⟨S100000x1, .f32⟩
  | .hbm, ⟨90, _⟩ => ⟨S100000x64, .f32⟩
  | .hbm, ⟨91, _⟩ => ⟨S100000x64, .f32⟩
  | .hbm, ⟨92, _⟩ => ⟨S1x32, .f32⟩
  | .hbm, ⟨93, _⟩ => ⟨S100000x32, .f32⟩
  | .hbm, ⟨94, _⟩ => ⟨S_, .i32⟩
  | .hbm, ⟨95, _⟩ => ⟨S2000000, .i32⟩
  | .hbm, ⟨96, _⟩ => ⟨S2000000, .i1⟩
  | .hbm, ⟨97, _⟩ => ⟨S_, .i32⟩
  | .hbm, ⟨98, _⟩ => ⟨S2000000, .i32⟩
  | .hbm, ⟨99, _⟩ => ⟨S2000000, .i32⟩
  | .hbm, ⟨100, _⟩ => ⟨S2000000, .i32⟩
  | .hbm, ⟨101, _⟩ => ⟨S2000000x1, .i32⟩
  | .hbm, ⟨102, _⟩ => ⟨S2000000x64, .f32⟩
  | .hbm, ⟨103, _⟩ => ⟨S_, .f32⟩
  | .hbm, ⟨104, _⟩ => ⟨S200000x64, .f32⟩
  | .hbm, ⟨105, _⟩ => ⟨S2000000x1, .i32⟩
  | .hbm, ⟨106, _⟩ => ⟨S200000x64, .f32⟩
  | .hbm, ⟨107, _⟩ => ⟨S_, .f32⟩
  | .hbm, ⟨108, _⟩ => ⟨S2000000x1, .f32⟩
  | .hbm, ⟨109, _⟩ => ⟨S_, .f32⟩
  | .hbm, ⟨110, _⟩ => ⟨S200000x1, .f32⟩
  | .hbm, ⟨111, _⟩ => ⟨S2000000x1, .i32⟩
  | .hbm, ⟨112, _⟩ => ⟨S200000x1, .f32⟩
  | .hbm, ⟨113, _⟩ => ⟨S_, .f32⟩
  | .hbm, ⟨114, _⟩ => ⟨S200000x1, .f32⟩
  | .hbm, ⟨115, _⟩ => ⟨S200000x1, .f32⟩
  | .hbm, ⟨116, _⟩ => ⟨S200000x64, .f32⟩
  | .hbm, ⟨117, _⟩ => ⟨S200000x64, .f32⟩
  | .hbm, ⟨118, _⟩ => ⟨S1x32, .f32⟩
  | .hbm, ⟨119, _⟩ => ⟨S200000x32, .f32⟩
  | .hbm, ⟨120, _⟩ => ⟨S300000x32, .f32⟩
  | .local _ .vmem, ⟨0, _⟩ => ⟨S10000x21, .f32⟩
  | .local _ .vmem, ⟨1, _⟩ => ⟨S10000x21, .f32⟩
  | .local _ .vmem, ⟨2, _⟩ => ⟨S10000x20, .f32⟩
  | .local _ .vmem, ⟨3, _⟩ => ⟨S10000x20, .f32⟩
  | .local _ .vmem, ⟨4, _⟩ => ⟨S21x64, .f32⟩
  | .local _ .vmem, ⟨5, _⟩ => ⟨S20x64, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | .local _ .vmem, ⟨9, _⟩ => ⟨S10000x20, .f32⟩
  | .local _ .vmem, ⟨10, _⟩ => ⟨S10000x20, .f32⟩
  | .local _ .vmem, ⟨11, _⟩ => ⟨S10000x21, .f32⟩
  | .local _ .vmem, ⟨12, _⟩ => ⟨S10000x21, .f32⟩
  | .local _ .vmem, ⟨13, _⟩ => ⟨S20x64, .f32⟩
  | .local _ .vmem, ⟨14, _⟩ => ⟨S21x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x32, .f32⟩
  | .local _ .vmem, ⟨23, _⟩ => ⟨S64x32, .f32⟩
  | .local _ .vmem, ⟨24, _⟩ => ⟨S1x32, .f32⟩
  | .local _ .vmem, ⟨25, _⟩ => ⟨S10000x32, .f32⟩
  | .local _ .vmem, ⟨26, _⟩ => ⟨S10000x32, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S64x32, .f32⟩
  | .local _ .vmem, ⟨32, _⟩ => ⟨S64x32, .f32⟩
  | .local _ .vmem, ⟨33, _⟩ => ⟨S1x32, .f32⟩
  | .local _ .vmem, ⟨34, _⟩ => ⟨S10000x32, .f32⟩
  | .local _ .vmem, ⟨35, _⟩ => ⟨S10000x32, .f32⟩
  | _, _ => ⟨S200000x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_4 : Ref sig .tc := ⟨.hbm, 42, rfl⟩
abbrev main_v20 : Ref sig .tc := ⟨.hbm, 43, rfl⟩
abbrev main_v21 : Ref sig .tc := ⟨.hbm, 44, rfl⟩
abbrev main_c_5 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_6 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_7 : Ref sig .tc := ⟨.hbm, 55, rfl⟩
abbrev main_v30 : Ref sig .tc := ⟨.hbm, 56, rfl⟩
abbrev main_cst_8 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_9 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_c_10 : Ref sig .tc := ⟨.hbm, 68, rfl⟩
abbrev main_v40 : Ref sig .tc := ⟨.hbm, 69, rfl⟩
abbrev main_v41 : Ref sig .tc := ⟨.hbm, 70, rfl⟩
abbrev main_c_11 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_12 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_13 : Ref sig .tc := ⟨.hbm, 81, rfl⟩
abbrev main_v50 : Ref sig .tc := ⟨.hbm, 82, rfl⟩
abbrev main_cst_14 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_15 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_c_16 : Ref sig .tc := ⟨.hbm, 94, rfl⟩
abbrev main_v60 : Ref sig .tc := ⟨.hbm, 95, rfl⟩
abbrev main_v61 : Ref sig .tc := ⟨.hbm, 96, rfl⟩
abbrev main_c_17 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_18 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_19 : Ref sig .tc := ⟨.hbm, 107, rfl⟩
abbrev main_v70 : Ref sig .tc := ⟨.hbm, 108, rfl⟩
abbrev main_cst_20 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_21 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x21 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S21x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S20x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x20 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x21 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S20x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S21x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S100000x20 : S_.BroadcastsInDim S100000x20 (![] : Fin 0 → Fin S100000x20.rank)
  bcast_S_S2000000x1 : S_.BroadcastsInDim S2000000x1 (![] : Fin 0 → Fin S2000000x1.rank)
  bcast_S_S100000x1 : S_.BroadcastsInDim S100000x1 (![] : Fin 0 → Fin S100000x1.rank)
  bcast_S100000x1_S100000x20_0_1 : S100000x1.BroadcastsInDim S100000x20 (![0, 1] : Fin 2 → Fin S100000x20.rank)
  shapeCasts_S64_S1x64 : S64.ShapeCasts S1x64
  inb_S10000x21_S10000x21_0_0 : ∀ a, (![0, 0] : Fin 2 → Nat) a + S10000x21.size a ≤ S10000x21.size a
  h_S10000x21 : 0 < S10000x21.numel
  bitsLt_bf16_f32 : FTy.bits .bf16 < FTy.bits .f32
  inb_S10000x20_S10000x20_0_0 : ∀ a, (![0, 0] : Fin 2 → Nat) a + S10000x20.size a ≤ S10000x20.size a
  h_S10000x20 : 0 < S10000x20.numel
  shapeCasts_S10000x20_S10000x20 : S10000x20.ShapeCasts S10000x20
  inb_S21x64_S21x64_0_0 : ∀ a, (![0, 0] : Fin 2 → Nat) a + S21x64.size a ≤ S21x64.size a
  h_S21x64 : 0 < S21x64.numel
  inb_S20x64_S20x64_0_0 : ∀ a, (![0, 0] : Fin 2 → Nat) a + S20x64.size a ≤ S20x64.size a
  h_S20x64 : 0 < S20x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S200000x21 : S_.BroadcastsInDim S200000x21 (![] : Fin 0 → Fin S200000x21.rank)
  bcast_S_S200000x1 : S_.BroadcastsInDim S200000x1 (![] : Fin 0 → Fin S200000x1.rank)
  bcast_S200000x1_S200000x21_0_1 : S200000x1.BroadcastsInDim S200000x21 (![0, 1] : Fin 2 → Fin S200000x21.rank)
  shapeCasts_S10000x21_S10000x21 : S10000x21.ShapeCasts S10000x21
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S32_S1x32 : S32.ShapeCasts S1x32
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  bcast_S_S200000x64 : S_.BroadcastsInDim S200000x64 (![] : Fin 0 → Fin S200000x64.rank)
  bcast_S200000x1_S200000x64_0_1 : S200000x1.BroadcastsInDim S200000x64 (![0, 1] : Fin 2 → Fin S200000x64.rank)
  concatenates_S200000x32_S100000x32_S300000x32_d0 : Shape.Concatenates [S200000x32, S100000x32] S300000x32 0
  gather_S200000x20_S2000000x1_S2000000x20_1_0_n_n_0_1_120_wf : GatherDims.WF S200000x20 S2000000x1 S2000000x20 [1] [0] [] [0] [] 1 ![1, 20]
  scatter_S100000x20_S2000000x1_S2000000x20_1_0_0_1_wf : ScatterDims.WF S100000x20 S2000000x1 S2000000x20 [1] [0] [0] 1
  scatter_S100000x1_S2000000x1_S2000000x1_1_0_0_1_wf : ScatterDims.WF S100000x1 S2000000x1 S2000000x1 [1] [0] [0] 1
  dot_S10000x21_S21x64_S10000x64_1_0_0_1_n_n_wf : DotDims.WF S10000x21 S21x64 S10000x64 [1] [0] [0] [1] [] []
  dot_S10000x20_S20x64_S10000x64_1_0_0_1_n_n_wf : DotDims.WF S10000x20 S20x64 S10000x64 [1] [0] [0] [1] [] []
  gather_S100000x21_S2000000x1_S2000000x21_1_0_n_n_0_1_121_wf : GatherDims.WF S100000x21 S2000000x1 S2000000x21 [1] [0] [] [0] [] 1 ![1, 21]
  scatter_S200000x21_S2000000x1_S2000000x21_1_0_0_1_wf : ScatterDims.WF S200000x21 S2000000x1 S2000000x21 [1] [0] [0] 1
  scatter_S200000x1_S2000000x1_S2000000x1_1_0_0_1_wf : ScatterDims.WF S200000x1 S2000000x1 S2000000x1 [1] [0] [0] 1
  gather_S200000x64_S2000000x1_S2000000x64_1_0_n_n_0_1_164_wf : GatherDims.WF S200000x64 S2000000x1 S2000000x64 [1] [0] [] [0] [] 1 ![1, 64]
  scatter_S100000x64_S2000000x1_S2000000x64_1_0_0_1_wf : ScatterDims.WF S100000x64 S2000000x1 S2000000x64 [1] [0] [0] 1
  dot_S10000x64_S64x32_S10000x32_1_0_0_1_n_n_wf : DotDims.WF S10000x64 S64x32 S10000x32 [1] [0] [0] [1] [] []
  gather_S100000x64_S2000000x1_S2000000x64_1_0_n_n_0_1_164_wf : GatherDims.WF S100000x64 S2000000x1 S2000000x64 [1] [0] [] [0] [] 1 ![1, 64]
  scatter_S200000x64_S2000000x1_S2000000x64_1_0_0_1_wf : ScatterDims.WF S200000x64 S2000000x1 S2000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x21.size a ≤ S100000x21.size a
  hwx0_0 : ∀ i : grid0.Coords, EltTy.bits .f32 = 32 ∨ (Rect.block (s := S100000x21) S10000x21.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x20.size a ≤ S100000x20.size a
  hwx0_1 : ∀ i : grid0.Coords, EltTy.bits .f32 = 32 ∨ (Rect.block (s := S100000x20) S10000x20.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S21x64.size a ≤ S21x64.size a
  hwx0_2 : ∀ i : grid0.Coords, EltTy.bits .f32 = 32 ∨ (Rect.block (s := S21x64) S21x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S20x64.size a ≤ S20x64.size a
  hwx0_3 : ∀ i : grid0.Coords, EltTy.bits .f32 = 32 ∨ (Rect.block (s := S20x64) S20x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x20.size a ≤ S200000x20.size a
  hwx1_0 : ∀ i : grid1.Coords, EltTy.bits .f32 = 32 ∨ (Rect.block (s := S200000x20) S10000x20.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x21.size a ≤ S200000x21.size a
  hwx1_1 : ∀ i : grid1.Coords, EltTy.bits .f32 = 32 ∨ (Rect.block (s := S200000x21) S10000x21.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S20x64.size a ≤ S20x64.size a
  hwx1_2 : ∀ i : grid1.Coords, EltTy.bits .f32 = 32 ∨ (Rect.block (s := S20x64) S20x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S21x64.size a ≤ S21x64.size a
  hwx1_3 : ∀ i : grid1.Coords, EltTy.bits .f32 = 32 ∨ (Rect.block (s := S21x64) S21x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S200000x64.size a
  hwx1_5 : ∀ i : grid1.Coords, EltTy.bits .f32 = 32 ∨ (Rect.block (s := S200000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x32.size a ≤ S64x32.size a
  hwx2_2 : ∀ i : grid2.Coords, EltTy.bits .f32 = 32 ∨ (Rect.block (s := S64x32) S64x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x32.size a ≤ S64x32.size a
  hwx2_3 : ∀ i : grid2.Coords, EltTy.bits .f32 = 32 ∨ (Rect.block (s := S64x32) S64x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x32.size a ≤ S100000x32.size a
  hwx2_5 : ∀ i : grid2.Coords, EltTy.bits .f32 = 32 ∨ (Rect.block (s := S100000x32) S10000x32.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S200000x64.size a
  hwx3_0 : ∀ i : grid3.Coords, EltTy.bits .f32 = 32 ∨ (Rect.block (s := S200000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S200000x64.size a
  hwx3_1 : ∀ i : grid3.Coords, EltTy.bits .f32 = 32 ∨ (Rect.block (s := S200000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x32.size a ≤ S64x32.size a
  hwx3_2 : ∀ i : grid3.Coords, EltTy.bits .f32 = 32 ∨ (Rect.block (s := S64x32) S64x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x32.size a ≤ S64x32.size a
  hwx3_3 : ∀ i : grid3.Coords, EltTy.bits .f32 = 32 ∨ (Rect.block (s := S64x32) S64x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x32.size a ≤ S200000x32.size a
  hwx3_5 : ∀ i : grid3.Coords, EltTy.bits .f32 = 32 ∨ (Rect.block (s := S200000x32) S10000x32.size (cc3_transform_5 i) (hinb3_5 i)).WholeWords (EltTy.packing .f32)

variable [Facts₀]

def gather_S200000x20_S2000000x1_S2000000x20_1_0_n_n_0_1_120 : GatherDims S200000x20 S2000000x1 S2000000x20 where
  offsetDims := [1]
  collapsedSliceDims := [0]
  operandBatchingDims := []
  startIndicesBatchingDims := []
  startIndexMap := [0]
  indexVectorDim := 1
  sliceSizes := ![1, 20]
  wf := gather_S200000x20_S2000000x1_S2000000x20_1_0_n_n_0_1_120_wf
def scatter_S100000x20_S2000000x1_S2000000x20_1_0_0_1 : ScatterDims S100000x20 S2000000x1 S2000000x20 where
  updateWindowDims := [1]
  insertedWindowDims := [0]
  scatterDimsToOperandDims := [0]
  indexVectorDim := 1
  wf := scatter_S100000x20_S2000000x1_S2000000x20_1_0_0_1_wf
def scatter_S100000x1_S2000000x1_S2000000x1_1_0_0_1 : ScatterDims S100000x1 S2000000x1 S2000000x1 where
  updateWindowDims := [1]
  insertedWindowDims := [0]
  scatterDimsToOperandDims := [0]
  indexVectorDim := 1
  wf := scatter_S100000x1_S2000000x1_S2000000x1_1_0_0_1_wf
def dot_S10000x21_S21x64_S10000x64_1_0_0_1_n_n : DotDims S10000x21 S21x64 S10000x64 where
  lhsContracting := [1]
  rhsContracting := [0]
  lhsNonContracting := [0]
  rhsNonContracting := [1]
  lhsBatch := []
  rhsBatch := []
  wf := dot_S10000x21_S21x64_S10000x64_1_0_0_1_n_n_wf
def dot_S10000x20_S20x64_S10000x64_1_0_0_1_n_n : DotDims S10000x20 S20x64 S10000x64 where
  lhsContracting := [1]
  rhsContracting := [0]
  lhsNonContracting := [0]
  rhsNonContracting := [1]
  lhsBatch := []
  rhsBatch := []
  wf := dot_S10000x20_S20x64_S10000x64_1_0_0_1_n_n_wf
def gather_S100000x21_S2000000x1_S2000000x21_1_0_n_n_0_1_121 : GatherDims S100000x21 S2000000x1 S2000000x21 where
  offsetDims := [1]
  collapsedSliceDims := [0]
  operandBatchingDims := []
  startIndicesBatchingDims := []
  startIndexMap := [0]
  indexVectorDim := 1
  sliceSizes := ![1, 21]
  wf := gather_S100000x21_S2000000x1_S2000000x21_1_0_n_n_0_1_121_wf
def scatter_S200000x21_S2000000x1_S2000000x21_1_0_0_1 : ScatterDims S200000x21 S2000000x1 S2000000x21 where
  updateWindowDims := [1]
  insertedWindowDims := [0]
  scatterDimsToOperandDims := [0]
  indexVectorDim := 1
  wf := scatter_S200000x21_S2000000x1_S2000000x21_1_0_0_1_wf
def scatter_S200000x1_S2000000x1_S2000000x1_1_0_0_1 : ScatterDims S200000x1 S2000000x1 S2000000x1 where
  updateWindowDims := [1]
  insertedWindowDims := [0]
  scatterDimsToOperandDims := [0]
  indexVectorDim := 1
  wf := scatter_S200000x1_S2000000x1_S2000000x1_1_0_0_1_wf
def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf

abbrev win0_0 : Pipeline.Window sig grid0 :=
  Pipeline.Window.ofSpec (Memref.whole main_arg1) S10000x21.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S10000x20.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S21x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S20x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S10000x20.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S10000x21.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S20x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S21x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v19) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S64x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S64x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S10000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v39) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v77) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg14) S64x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S64x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v78) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v79) S10000x32.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S200000x20 : Shape := ⟨2, ![200000, 20]⟩
abbrev S100000x21 : Shape := ⟨2, ![100000, 21]⟩
abbrev S2000000 : Shape := ⟨1, ![2000000]⟩
abbrev S20x64 : Shape := ⟨2, ![20, 64]⟩
abbrev S21x64 : Shape := ⟨2, ![21, 64]⟩
abbrev S64 : Shape := ⟨1, ![64]⟩
abbrev S64x32 : Shape := ⟨2, ![64, 32]⟩
abbrev S32 : Shape := ⟨1, ![32]⟩
abbrev S_ : Shape := ⟨0, ![]⟩
abbrev S2000000x1 : Shape := ⟨2, ![2000000, 1]⟩
abbrev S2000000x20 : Shape := ⟨2, ![2000000, 20]⟩
abbrev S100000x20 : Shape := ⟨2, ![100000, 20]⟩
abbrev S100000x1 : Shape := ⟨2, ![100000, 1]⟩
abbrev S100000x64 : Shape := ⟨2, ![100000, 64]⟩
abbrev S1x64 : Shape := ⟨2, ![1, 64]⟩
abbrev S2000000x21 : Shape := ⟨2, ![2000000, 21]⟩
abbrev S200000x21 : Shape := ⟨2, ![200000, 21]⟩
abbrev S200000x1 : Shape := ⟨2, ![200000, 1]⟩
abbrev S200000x64 : Shape := ⟨2, ![200000, 64]⟩
abbrev S2000000x64 : Shape := ⟨2, ![2000000, 64]⟩
abbrev S100000x32 : Shape := ⟨2, ![100000, 32]⟩
abbrev S1x32 : Shape := ⟨2, ![1, 32]⟩
abbrev S200000x32 : Shape := ⟨2, ![200000, 32]⟩
abbrev S300000x32 : Shape := ⟨2, ![300000, 32]⟩

abbrev nBuf : Space → Nat
  | .hbm => 143
  | .vmem => 0
  | .smem => 0
  | _ => 0

abbrev hbmTy0_0 (i : Nat) : BufTy := match i % 128 with
  | 0 => ⟨S200000x20, .f32⟩
  | 1 => ⟨S100000x21, .f32⟩
  | 2 => ⟨S2000000, .i32⟩
  | 3 => ⟨S2000000, .i32⟩
  | 4 => ⟨S20x64, .f32⟩
  | 5 => ⟨S21x64, .f32⟩
  | 6 => ⟨S64, .f32⟩
  | 7 => ⟨S21x64, .f32⟩
  | 8 => ⟨S20x64, .f32⟩
  | 9 => ⟨S64, .f32⟩
  | 10 => ⟨S64x32, .f32⟩
  | 11 => ⟨S64x32, .f32⟩
  | 12 => ⟨S32, .f32⟩
  | 13 => ⟨S64x32, .f32⟩
  | 14 => ⟨S64x32, .f32⟩
  | 15 => ⟨S32, .f32⟩
  | 16 => ⟨S_, .i32⟩
  | 17 => ⟨S2000000, .i32⟩
  | 18 => ⟨S2000000, .i1⟩
  | 19 => ⟨S_, .i32⟩
  | 20 => ⟨S2000000, .i32⟩
  | 21 => ⟨S2000000, .i32⟩
  | 22 => ⟨S2000000, .i32⟩
  | 23 => ⟨S2000000x1, .i32⟩
  | 24 => ⟨S2000000x20, .f32⟩
  | 25 => ⟨S_, .f32⟩
  | 26 => ⟨S100000x20, .f32⟩
  | 27 => ⟨S2000000x1, .i32⟩
  | 28 => ⟨S100000x20, .f32⟩
  | 29 => ⟨S_, .f32⟩
  | 30 => ⟨S2000000x1, .f32⟩
  | 31 => ⟨S_, .f32⟩
  | 32 => ⟨S100000x1, .f32⟩
  | 33 => ⟨S2000000x1, .i32⟩
  | 34 => ⟨S100000x1, .f32⟩
  | 35 => ⟨S_, .f32⟩
  | 36 => ⟨S100000x1, .f32⟩
  | 37 => ⟨S100000x1, .f32⟩
  | 38 => ⟨S100000x20, .f32⟩
  | 39 => ⟨S100000x20, .f32⟩
  | 40 => ⟨S100000x64, .f32⟩
  | 41 => ⟨S100000x64, .f32⟩
  | 42 => ⟨S100000x64, .f32⟩
  | 43 => ⟨S1x64, .f32⟩
  | 44 => ⟨S100000x64, .f32⟩
  | 45 => ⟨S100000x64, .f32⟩
  | 46 => ⟨S_, .i32⟩
  | 47 => ⟨S2000000, .i32⟩
  | 48 => ⟨S2000000, .i1⟩
  | 49 => ⟨S_, .i32⟩
  | 50 => ⟨S2000000, .i32⟩
  | 51 => ⟨S2000000, .i32⟩
  | 52 => ⟨S2000000, .i32⟩
  | 53 => ⟨S2000000x1, .i32⟩
  | 54 => ⟨S2000000x21, .f32⟩
  | 55 => ⟨S_, .f32⟩
  | 56 => ⟨S200000x21, .f32⟩
  | 57 => ⟨S2000000x1, .i32⟩
  | 58 => ⟨S200000x21, .f32⟩
  | 59 => ⟨S_, .f32⟩
  | 60 => ⟨S2000000x1, .f32⟩
  | 61 => ⟨S_, .f32⟩
  | 62 => ⟨S200000x1, .f32⟩
  | 63 => ⟨S2000000x1, .i32⟩
  | 64 => ⟨S200000x1, .f32⟩
  | 65 => ⟨S_, .f32⟩
  | 66 => ⟨S200000x1, .f32⟩
  | 67 => ⟨S200000x1, .f32⟩
  | 68 => ⟨S200000x21, .f32⟩
  | 69 => ⟨S200000x21, .f32⟩
  | 70 => ⟨S200000x64, .f32⟩
  | 71 => ⟨S200000x64, .f32⟩
  | 72 => ⟨S200000x64, .f32⟩
  | 73 => ⟨S1x64, .f32⟩
  | 74 => ⟨S200000x64, .f32⟩
  | 75 => ⟨S200000x64, .f32⟩
  | 76 => ⟨S_, .f32⟩
  | 77 => ⟨S100000x64, .f32⟩
  | 78 => ⟨S100000x64, .f32⟩
  | 79 => ⟨S_, .f32⟩
  | 80 => ⟨S200000x64, .f32⟩
  | 81 => ⟨S200000x64, .f32⟩
  | 82 => ⟨S_, .i32⟩
  | 83 => ⟨S2000000, .i32⟩
  | 84 => ⟨S2000000, .i1⟩
  | 85 => ⟨S_, .i32⟩
  | 86 => ⟨S2000000, .i32⟩
  | 87 => ⟨S2000000, .i32⟩
  | 88 => ⟨S2000000, .i32⟩
  | 89 => ⟨S2000000x1, .i32⟩
  | 90 => ⟨S2000000x64, .f32⟩
  | 91 => ⟨S_, .f32⟩
  | 92 => ⟨S100000x64, .f32⟩
  | 93 => ⟨S2000000x1, .i32⟩
  | 94 => ⟨S100000x64, .f32⟩
  | 95 => ⟨S_, .f32⟩
  | 96 => ⟨S2000000x1, .f32⟩
  | 97 => ⟨S_, .f32⟩
  | 98 => ⟨S100000x1, .f32⟩
  | 99 => ⟨S2000000x1, .i32⟩
  | 100 => ⟨S100000x1, .f32⟩
  | 101 => ⟨S_, .f32⟩
  | 102 => ⟨S100000x1, .f32⟩
  | 103 => ⟨S100000x1, .f32⟩
  | 104 => ⟨S100000x64, .f32⟩
  | 105 => ⟨S100000x64, .f32⟩
  | 106 => ⟨S100000x32, .f32⟩
  | 107 => ⟨S100000x32, .f32⟩
  | 108 => ⟨S100000x32, .f32⟩
  | 109 => ⟨S1x32, .f32⟩
  | 110 => ⟨S100000x32, .f32⟩
  | 111 => ⟨S100000x32, .f32⟩
  | 112 => ⟨S_, .i32⟩
  | 113 => ⟨S2000000, .i32⟩
  | 114 => ⟨S2000000, .i1⟩
  | 115 => ⟨S_, .i32⟩
  | 116 => ⟨S2000000, .i32⟩
  | 117 => ⟨S2000000, .i32⟩
  | 118 => ⟨S2000000, .i32⟩
  | 119 => ⟨S2000000x1, .i32⟩
  | 120 => ⟨S2000000x64, .f32⟩
  | 121 => ⟨S_, .f32⟩
  | 122 => ⟨S200000x64, .f32⟩
  | 123 => ⟨S2000000x1, .i32⟩
  | 124 => ⟨S200000x64, .f32⟩
  | 125 => ⟨S_, .f32⟩
  | 126 => ⟨S2000000x1, .f32⟩
  | 127 => ⟨S_, .f32⟩
  | _ => ⟨S200000x20, .f32⟩

abbrev hbmTy0_1 (i : Nat) : BufTy := match i % 128 with
  | 0 => ⟨S200000x1, .f32⟩
  | 1 => ⟨S2000000x1, .i32⟩
  | 2 => ⟨S200000x1, .f32⟩
  | 3 => ⟨S_, .f32⟩
  | 4 => ⟨S200000x1, .f32⟩
  | 5 => ⟨S200000x1, .f32⟩
  | 6 => ⟨S200000x64, .f32⟩
  | 7 => ⟨S200000x64, .f32⟩
  | 8 => ⟨S200000x32, .f32⟩
  | 9 => ⟨S200000x32, .f32⟩
  | 10 => ⟨S200000x32, .f32⟩
  | 11 => ⟨S1x32, .f32⟩
  | 12 => ⟨S200000x32, .f32⟩
  | 13 => ⟨S200000x32, .f32⟩
  | 14 => ⟨S300000x32, .f32⟩
  | _ => ⟨S200000x20, .f32⟩

abbrev hbmTy (i : Nat) : BufTy := match i / 128 with
  | 0 => hbmTy0_0 i
  | 1 => hbmTy0_1 i
  | _ => ⟨S200000x20, .f32⟩

abbrev bufTy : (tb : Table) → Fin (tcTables nBuf tb) → BufTy
  | .hbm, ⟨i, _⟩ => hbmTy i
  | _, _ => ⟨S200000x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_4 : Ref sig .tc := ⟨.hbm, 46, rfl⟩
abbrev main_v24 : Ref sig .tc := ⟨.hbm, 47, rfl⟩
abbrev main_v25 : Ref sig .tc := ⟨.hbm, 48, rfl⟩
abbrev main_c_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_6 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_7 : Ref sig .tc := ⟨.hbm, 59, rfl⟩
abbrev main_v34 : Ref sig .tc := ⟨.hbm, 60, rfl⟩
abbrev main_cst_8 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_9 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call0_cst : Ref sig .tc := ⟨.hbm, 76, rfl⟩
abbrev main_call0_v0 : Ref sig .tc := ⟨.hbm, 77, rfl⟩
abbrev main_v48 : Ref sig .tc := ⟨.hbm, 78, rfl⟩
abbrev main_call1_cst : Ref sig .tc := ⟨.hbm, 79, rfl⟩
abbrev main_call1_v0 : Ref sig .tc := ⟨.hbm, 80, rfl⟩
abbrev main_v49 : Ref sig .tc := ⟨.hbm, 81, rfl⟩
abbrev main_c_10 : Ref sig .tc := ⟨.hbm, 82, rfl⟩
abbrev main_v50 : Ref sig .tc := ⟨.hbm, 83, rfl⟩
abbrev main_v51 : Ref sig .tc := ⟨.hbm, 84, rfl⟩
abbrev main_c_11 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_12 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_13 : Ref sig .tc := ⟨.hbm, 95, rfl⟩
abbrev main_v60 : Ref sig .tc := ⟨.hbm, 96, rfl⟩
abbrev main_cst_14 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_15 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_c_16 : Ref sig .tc := ⟨.hbm, 112, rfl⟩
abbrev main_v74 : Ref sig .tc := ⟨.hbm, 113, rfl⟩
abbrev main_v75 : Ref sig .tc := ⟨.hbm, 114, rfl⟩
abbrev main_c_17 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_18 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_19 : Ref sig .tc := ⟨.hbm, 125, rfl⟩
abbrev main_v84 : Ref sig .tc := ⟨.hbm, 126, rfl⟩
abbrev main_cst_20 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_21 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S100000x20 : S_.BroadcastsInDim S100000x20 (![] : Fin 0 → Fin S100000x20.rank)
  bcast_S_S2000000x1 : S_.BroadcastsInDim S2000000x1 (![] : Fin 0 → Fin S2000000x1.rank)
  bcast_S_S100000x1 : S_.BroadcastsInDim S100000x1 (![] : Fin 0 → Fin S100000x1.rank)
  bcast_S100000x1_S100000x20_0_1 : S100000x1.BroadcastsInDim S100000x20 (![0, 1] : Fin 2 → Fin S100000x20.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S200000x21 : S_.BroadcastsInDim S200000x21 (![] : Fin 0 → Fin S200000x21.rank)
  bcast_S_S200000x1 : S_.BroadcastsInDim S200000x1 (![] : Fin 0 → Fin S200000x1.rank)
  bcast_S200000x1_S200000x21_0_1 : S200000x1.BroadcastsInDim S200000x21 (![0, 1] : Fin 2 → Fin S200000x21.rank)
  bcast_S1x64_S200000x64_0_1 : S1x64.BroadcastsInDim S200000x64 (![0, 1] : Fin 2 → Fin S200000x64.rank)
  bcast_S_S100000x64 : S_.BroadcastsInDim S100000x64 (![] : Fin 0 → Fin S100000x64.rank)
  bcast_S_S200000x64 : S_.BroadcastsInDim S200000x64 (![] : Fin 0 → Fin S200000x64.rank)
  bcast_S100000x1_S100000x64_0_1 : S100000x1.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S200000x1_S200000x64_0_1 : S200000x1.BroadcastsInDim S200000x64 (![0, 1] : Fin 2 → Fin S200000x64.rank)
  bcast_S1x32_S200000x32_0_1 : S1x32.BroadcastsInDim S200000x32 (![0, 1] : Fin 2 → Fin S200000x32.rank)
  concatenates_S200000x32_S100000x32_S300000x32_d0 : Shape.Concatenates [S200000x32, S100000x32] S300000x32 0
  gather_S200000x20_S2000000x1_S2000000x20_1_0_n_n_0_1_120_wf : GatherDims.WF S200000x20 S2000000x1 S2000000x20 [1] [0] [] [0] [] 1 ![1, 20]
  scatter_S100000x20_S2000000x1_S2000000x20_1_0_0_1_wf : ScatterDims.WF S100000x20 S2000000x1 S2000000x20 [1] [0] [0] 1
  scatter_S100000x1_S2000000x1_S2000000x1_1_0_0_1_wf : ScatterDims.WF S100000x1 S2000000x1 S2000000x1 [1] [0] [0] 1
  dot_S100000x21_S21x64_S100000x64_1_0_0_1_n_n_wf : DotDims.WF S100000x21 S21x64 S100000x64 [1] [0] [0] [1] [] []
  dot_S100000x20_S20x64_S100000x64_1_0_0_1_n_n_wf : DotDims.WF S100000x20 S20x64 S100000x64 [1] [0] [0] [1] [] []
  gather_S100000x21_S2000000x1_S2000000x21_1_0_n_n_0_1_121_wf : GatherDims.WF S100000x21 S2000000x1 S2000000x21 [1] [0] [] [0] [] 1 ![1, 21]
  scatter_S200000x21_S2000000x1_S2000000x21_1_0_0_1_wf : ScatterDims.WF S200000x21 S2000000x1 S2000000x21 [1] [0] [0] 1
  scatter_S200000x1_S2000000x1_S2000000x1_1_0_0_1_wf : ScatterDims.WF S200000x1 S2000000x1 S2000000x1 [1] [0] [0] 1
  dot_S200000x20_S20x64_S200000x64_1_0_0_1_n_n_wf : DotDims.WF S200000x20 S20x64 S200000x64 [1] [0] [0] [1] [] []
  dot_S200000x21_S21x64_S200000x64_1_0_0_1_n_n_wf : DotDims.WF S200000x21 S21x64 S200000x64 [1] [0] [0] [1] [] []
  gather_S200000x64_S2000000x1_S2000000x64_1_0_n_n_0_1_164_wf : GatherDims.WF S200000x64 S2000000x1 S2000000x64 [1] [0] [] [0] [] 1 ![1, 64]
  scatter_S100000x64_S2000000x1_S2000000x64_1_0_0_1_wf : ScatterDims.WF S100000x64 S2000000x1 S2000000x64 [1] [0] [0] 1
  dot_S100000x64_S64x32_S100000x32_1_0_0_1_n_n_wf : DotDims.WF S100000x64 S64x32 S100000x32 [1] [0] [0] [1] [] []
  gather_S100000x64_S2000000x1_S2000000x64_1_0_n_n_0_1_164_wf : GatherDims.WF S100000x64 S2000000x1 S2000000x64 [1] [0] [] [0] [] 1 ![1, 64]
  scatter_S200000x64_S2000000x1_S2000000x64_1_0_0_1_wf : ScatterDims.WF S200000x64 S2000000x1 S2000000x64 [1] [0] [0] 1
  dot_S200000x64_S64x32_S200000x32_1_0_0_1_n_n_wf : DotDims.WF S200000x64 S64x32 S200000x32 [1] [0] [0] [1] [] []

variable [Facts₀]

def gather_S200000x20_S2000000x1_S2000000x20_1_0_n_n_0_1_120 : GatherDims S200000x20 S2000000x1 S2000000x20 where
  offsetDims := [1]
  collapsedSliceDims := [0]
  operandBatchingDims := []
  startIndicesBatchingDims := []
  startIndexMap := [0]
  indexVectorDim := 1
  sliceSizes := ![1, 20]
  wf := gather_S200000x20_S2000000x1_S2000000x20_1_0_n_n_0_1_120_wf
def scatter_S100000x20_S2000000x1_S2000000x20_1_0_0_1 : ScatterDims S100000x20 S2000000x1 S2000000x20 where
  updateWindowDims := [1]
  insertedWindowDims := [0]
  scatterDimsToOperandDims := [0]
  indexVectorDim := 1
  wf := scatter_S100000x20_S2000000x1_S2000000x20_1_0_0_1_wf
def scatter_S100000x1_S2000000x1_S2000000x1_1_0_0_1 : ScatterDims S100000x1 S2000000x1 S2000000x1 where
  updateWindowDims := [1]
  insertedWindowDims := [0]
  scatterDimsToOperandDims := [0]
  indexVectorDim := 1
  wf := scatter_S100000x1_S2000000x1_S2000000x1_1_0_0_1_wf
def dot_S100000x21_S21x64_S100000x64_1_0_0_1_n_n : DotDims S100000x21 S21x64 S100000x64 where
  lhsContracting := [1]
  rhsContracting := [0]
  lhsNonContracting := [0]
  rhsNonContracting := [1]
  lhsBatch := []
  rhsBatch := []
  wf := dot_S100000x21_S21x64_S100000x64_1_0_0_1_n_n_wf
def dot_S100000x20_S20x64_S100000x64_1_0_0_1_n_n : DotDims S100000x20 S20x64 S100000x64 where
  lhsContracting := [1]
  rhsContracting := [0]
  lhsNonContracting := [0]
  rhsNonContracting := [1]
  lhsBatch := []
  rhsBatch := []
  wf := dot_S100000x20_S20x64_S100000x64_1_0_0_1_n_n_wf
def gather_S100000x21_S2000000x1_S2000000x21_1_0_n_n_0_1_121 : GatherDims S100000x21 S2000000x1 S2000000x21 where
  offsetDims := [1]
  collapsedSliceDims := [0]
  operandBatchingDims := []
  startIndicesBatchingDims := []
  startIndexMap := [0]
  indexVectorDim := 1
  sliceSizes := ![1, 21]
  wf := gather_S100000x21_S2000000x1_S2000000x21_1_0_n_n_0_1_121_wf
def scatter_S200000x21_S2000000x1_S2000000x21_1_0_0_1 : ScatterDims S200000x21 S2000000x1 S2000000x21 where
  updateWindowDims := [1]
  insertedWindowDims := [0]
  scatterDimsToOperandDims := [0]
  indexVectorDim := 1
  wf := scatter_S200000x21_S2000000x1_S2000000x21_1_0_0_1_wf
def scatter_S200000x1_S2000000x1_S2000000x1_1_0_0_1 : ScatterDims S200000x1 S2000000x1 S2000000x1 where
  updateWindowDims := [1]
  insertedWindowDims := [0]
  scatterDimsToOperandDims := [0]
  indexVectorDim := 1
  wf := scatter_S200000x1_S2000000x1_S2000000x1_1_0_0_1_wf
def dot_S200000x20_S20x64_S200000x64_1_0_0_1_n_n : DotDims S200000x20 S20x64 S200000x64 where
  lhsContracting := [1]
  rhsContracting := [0]
  lhsNonContracting := [0]
  rhsNonContracting := [1]
  lhsBatch := []
  rhsBatch := []
  wf := dot_S200000x20_S20x64_S200000x64_1_0_0_1_n_n_wf
def dot_S200000x21_S21x64_S200000x64_1_0_0_1_n_n : DotDims S200000x21 S21x64 S200000x64 where
  lhsContracting := [1]
  rhsContracting := [0]
  lhsNonContracting := [0]
  rhsNonContracting := [1]
  lhsBatch := []
  rhsBatch := []
  wf := dot_S200000x21_S21x64_S200000x64_1_0_0_1_n_n_wf
def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def dot_S200000x64_S64x32_S200000x32_1_0_0_1_n_n : DotDims S200000x64 S64x32 S200000x32 where
  lhsContracting := [1]
  rhsContracting := [0]
  lhsNonContracting := [0]
  rhsNonContracting := [1]
  lhsBatch := []
  rhsBatch := []
  wf := dot_S200000x64_S64x32_S200000x32_1_0_0_1_n_n_wf

class Facts : Prop extends Facts₀ where

variable [Facts]
-- ==== Proof.KernelRun.lean ====
/-
  The idealized kernel's run with every buffer named. The program is four pipelined regions among five stretches of
  host operations; the generated frame folds the buffer contents through these nine segments (W0 at launch, ..., W9
  at the return) and keeps, of the last contents, only the argument arrays. Here the same run is stated with the
  whole last valuation in its post: at the return every unscoped buffer b of core c holds W9 c b. The result buffer's
  value is then read off W9 by walking the fold backwards.
-/
import proofs.«145641_j47596827574948_1_alg».proof.Proof.Gen.KernelIdeal.Frame

set_option maxRecDepth 16384

noncomputable section

namespace Cert.KernelIdeal.RunAll

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates, nothing faulting, with every unscoped buffer of
    every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- The same run, read at the result buffer and at the sixteen argument arrays: the result at the last contents, the
    arguments as launched. -/
theorem run_result : θ_run defs (onTc (τ := τ) (main (F := F))) ⟨m, fun _ => 0, ρ⟩ (fun r => ∀ c : Dev nD,
      r.2.mem ((c.tc : Thread nD τ).loc main_v80) = W9 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
      ⟨h c _ (mem_uc main_v80 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c)⟩)
    (run_all m ρ)

end Cert.KernelIdeal.RunAll

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.KernelDots.lean ====
/-
  The three matrix products the kernel bodies use — a 10000 x 21 block by a 21 x 64 weight, a 10000 x 20 block by a
  20 x 64 weight, a 10000 x 64 block by a 64 x 32 weight — are plain products: each contracts the block's columns
  with the weight's rows and batches nothing. Stated as the four coordinate facts of the operand indices, which is
  what reading a product at (row, column) as a finite sum asks for.
-/
import proofs.«145641_j47596827574948_1_alg».proof.Proof.Gen.KernelIdeal
import proofs.«145641_j47596827574948_1_alg».proof.Proof.LibDotIx2

namespace Cert.KernelIdeal.Dots

open Idealize.ShloMosaic Idealize.ShloMosaic.ValueIdx Cert.KernelIdeal

/-- The record's dimension numbers are those of a plain product: the left operand's second axis against the right
    operand's first, nothing batched. -/
theorem plain_S10000x21_S21x64_S10000x64 : PlainDot dot_S10000x21_S21x64_S10000x64_1_0_0_1_n_n where
  rank := rfl
  size := rfl
  l0 := fun i q => by
    unfold DotDims.lhsIdx
    rw [dif_neg (show ¬(0 : Fin S10000x21.rank) ∈ dot_S10000x21_S21x64_S10000x64_1_0_0_1_n_n.lhsBatch by decide),
      dif_pos (show (0 : Fin S10000x21.rank) ∈ dot_S10000x21_S21x64_S10000x64_1_0_0_1_n_n.lhsNonContracting by decide)]
    rfl
  l1 := fun i q => dot_S10000x21_S21x64_S10000x64_1_0_0_1_n_n.lhsIdx_val_of_single rfl i q
  r0 := fun i q => dot_S10000x21_S21x64_S10000x64_1_0_0_1_n_n.rhsIdx_val_of_single rfl i q
  r1 := fun i q => by
    unfold DotDims.rhsIdx
    rw [dif_neg (show ¬(1 : Fin S21x64.rank) ∈ dot_S10000x21_S21x64_S10000x64_1_0_0_1_n_n.rhsBatch by decide),
      dif_pos (show (1 : Fin S21x64.rank) ∈ dot_S10000x21_S21x64_S10000x64_1_0_0_1_n_n.rhsNonContracting by decide)]
    rfl

/-- The record's dimension numbers are those of a plain product: the left operand's second axis against the right
    operand's first, nothing batched. -/
theorem plain_S10000x20_S20x64_S10000x64 : PlainDot dot_S10000x20_S20x64_S10000x64_1_0_0_1_n_n where
  rank := rfl
  size := rfl
  l0 := fun i q => by
    unfold DotDims.lhsIdx
    rw [dif_neg (show ¬(0 : Fin S10000x20.rank) ∈ dot_S10000x20_S20x64_S10000x64_1_0_0_1_n_n.lhsBatch by decide),
      dif_pos (show (0 : Fin S10000x20.rank) ∈ dot_S10000x20_S20x64_S10000x64_1_0_0_1_n_n.lhsNonContracting by decide)]
    rfl
  l1 := fun i q => dot_S10000x20_S20x64_S10000x64_1_0_0_1_n_n.lhsIdx_val_of_single rfl i q
  r0 := fun i q => dot_S10000x20_S20x64_S10000x64_1_0_0_1_n_n.rhsIdx_val_of_single rfl i q
  r1 := fun i q => by
    unfold DotDims.rhsIdx
    rw [dif_neg (show ¬(1 : Fin S20x64.rank) ∈ dot_S10000x20_S20x64_S10000x64_1_0_0_1_n_n.rhsBatch by decide),
      dif_pos (show (1 : Fin S20x64.rank) ∈ dot_S10000x20_S20x64_S10000x64_1_0_0_1_n_n.rhsNonContracting by decide)]
    rfl

/-- The record's dimension numbers are those of a plain product: the left operand's second axis against the right
    operand's first, nothing batched. -/
theorem plain_S10000x64_S64x32_S10000x32 : PlainDot dot_S10000x64_S64x32_S10000x32_1_0_0_1_n_n where
  rank := rfl
  size := rfl
  l0 := fun i q => by
    unfold DotDims.lhsIdx
    rw [dif_neg (show ¬(0 : Fin S10000x64.rank) ∈ dot_S10000x64_S64x32_S10000x32_1_0_0_1_n_n.lhsBatch by decide),
      dif_pos (show (0 : Fin S10000x64.rank) ∈ dot_S10000x64_S64x32_S10000x32_1_0_0_1_n_n.lhsNonContracting by decide)]
    rfl
  l1 := fun i q => dot_S10000x64_S64x32_S10000x32_1_0_0_1_n_n.lhsIdx_val_of_single rfl i q
  r0 := fun i q => dot_S10000x64_S64x32_S10000x32_1_0_0_1_n_n.rhsIdx_val_of_single rfl i q
  r1 := fun i q => by
    unfold DotDims.rhsIdx
    rw [dif_neg (show ¬(1 : Fin S64x32.rank) ∈ dot_S10000x64_S64x32_S10000x32_1_0_0_1_n_n.rhsBatch by decide),
      dif_pos (show (1 : Fin S64x32.rank) ∈ dot_S10000x64_S64x32_S10000x32_1_0_0_1_n_n.rhsNonContracting by decide)]
    rfl

end Cert.KernelIdeal.Dots
-- ==== Proof.LibBroadcastInDim.lean ====
/-
  The host's broadcast_in_dim in the five small forms a row-wise normalisation uses, each read at an index given by
  coordinates: a scalar to any shape; a vector of length a to an a x 1 column; an a x 1 column to a x b; a vector of
  length b to a 1 x b row; a 1 x b row to a x b. In each the result's entry is the operand's entry at the coordinates
  the broadcast keeps.
-/
import Idealize.ShloMosaic.Lib.Pipeline.Value
import Idealize.ShloMosaic.Lib.ValueIdx

namespace Idealize.ShloMosaic.ValueIdx

open Idealize.ShloMosaic

variable {α : Type}

/-- A scalar broadcast to any shape reads the scalar everywhere. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun a => a.elim0

/-- A vector of length a placed as an a x 1 column reads, at (r, u), the vector at r. -/
theorem broadcastInDim_vec_col_apply {a : ℕ} (h : (⟨1, ![a]⟩ : Shape).BroadcastsInDim (⟨2, ![a, 1]⟩ : Shape) ![0])
    (x : (⟨1, ![a]⟩ : Shape).Idx → α) (r : Fin a) (u : Fin 1) :
    broadcastInDim (⟨2, ![a, 1]⟩ : Shape) ![0] h x (ix2 r u) = x (ix1 r) := by
  refine broadcastInDim_apply ![0] h x (ix2 r u) (ix1 r) fun ax => ?_
  match ax with
  | ⟨0, _⟩ =>
    show r.val = if a = 1 then 0 else r.val
    split
    · have := r.isLt; omega
    · rfl

/-- An a x 1 column broadcast to a x b reads, at (r, c), the column at (r, 0). -/
theorem broadcastInDim_col_mat_apply {a b : ℕ} (h : (⟨2, ![a, 1]⟩ : Shape).BroadcastsInDim (⟨2, ![a, b]⟩ : Shape) ![0, 1])
    (x : (⟨2, ![a, 1]⟩ : Shape).Idx → α) (r : Fin a) (c : Fin b) :
    broadcastInDim (⟨2, ![a, b]⟩ : Shape) ![0, 1] h x (ix2 r c) = x (ix2 r (0 : Fin 1)) := by
  refine broadcastInDim_apply ![0, 1] h x (ix2 r c) (ix2 r (0 : Fin 1)) fun ax => ?_
  match ax with
  | ⟨0, _⟩ =>
    show r.val = if a = 1 then 0 else r.val
    split
    · have := r.isLt; omega
    · rfl
  | ⟨1, _⟩ => rfl

/-- A vector of length b placed as a 1 x b row reads, at (u, c), the vector at c. -/
theorem broadcastInDim_vec_row_apply {b : ℕ} (h : (⟨1, ![b]⟩ : Shape).BroadcastsInDim (⟨2, ![1, b]⟩ : Shape) ![1])
    (x : (⟨1, ![b]⟩ : Shape).Idx → α) (u : Fin 1) (c : Fin b) :
    broadcastInDim (⟨2, ![1, b]⟩ : Shape) ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- A 1 x b row broadcast to a x b reads, at (r, c), the row at (0, c). -/
theorem broadcastInDim_row_mat_apply {a b : ℕ} (h : (⟨2, ![1, b]⟩ : Shape).BroadcastsInDim (⟨2, ![a, b]⟩ : Shape) ![0, 1])
    (x : (⟨2, ![1, b]⟩ : Shape).Idx → α) (r : Fin a) (c : Fin b) :
    broadcastInDim (⟨2, ![a, b]⟩ : Shape) ![0, 1] h x (ix2 r c) = x (ix2 (0 : Fin 1) c) := by
  refine broadcastInDim_apply ![0, 1] h x (ix2 r c) (ix2 (0 : Fin 1) c) fun ax => ?_
  match ax with
  | ⟨0, _⟩ => rfl
  | ⟨1, _⟩ =>
    show c.val = if b = 1 then 0 else c.val
    split
    · have := c.isLt; omega
    · rfl

end Idealize.ShloMosaic.ValueIdx
-- ==== Proof.LibTwoTermLayer.lean ====
/-
  A dense layer with two matrix products and a bias row, read at one entry, at the extended reals, for any sizes:
  entry (r, c) of  x · w + x' · w' + bias  is

      (the sum over k of x (r, k) * w (k, c)) + (the sum over k' of x' (r, k') * w' (k', c)) + bias c.

  Two spellings of the layer are brought to this one formula. On the vector unit: two matrix-unit products into zero
  accumulators, added, plus a 1 x N row broadcast down the rows. On the host: two dot_general contractions, added,
  plus a length-N vector placed as a 1 x N row and broadcast down the rows. The operands of the products may carry
  any float formats: at the extended reals a change of format changes nothing. Also here: the maximum with a zero
  splat in the two spellings, each the maximum of the entry with the value of the zero word.
-/
import proofs.«145641_j47596827574948_1_alg».proof.Proof.LibDotIx2
import proofs.«145641_j47596827574948_1_alg».proof.Proof.LibBroadcastInDim
import Idealize.ShloMosaic.Lib.ValueLayout

noncomputable section

open scoped BigOperators

namespace Idealize.ShloMosaic.ValueIdx

open Idealize.ShloMosaic

/-- Entry (r, c) of x · w + x' · w' + bias over the extended reals. -/
def twoTermAt {M K K' N : ℕ} (x : (⟨2, ![M, K]⟩ : Shape).Idx → EReal) (x' : (⟨2, ![M, K']⟩ : Shape).Idx → EReal)
    (w : (⟨2, ![K, N]⟩ : Shape).Idx → EReal) (w' : (⟨2, ![K', N]⟩ : Shape).Idx → EReal) (bias : Fin N → EReal)
    (r : Fin M) (c : Fin N) : EReal :=
  (∑ k : Fin K, x (ix2 r k) * w (ix2 k c)) + (∑ k : Fin K', x' (ix2 r k) * w' (ix2 k c)) + bias c

/-- Two entries agree when their rows of both left operands, their columns of both right operands and their bias
    entries agree — the left operands may be arrays of different heights (a block and the array it is cut from). -/
theorem twoTermAt_congr {M M' K K' N : ℕ} {x : (⟨2, ![M, K]⟩ : Shape).Idx → EReal} {x' : (⟨2, ![M, K']⟩ : Shape).Idx → EReal}
    {w : (⟨2, ![K, N]⟩ : Shape).Idx → EReal} {w' : (⟨2, ![K', N]⟩ : Shape).Idx → EReal} {bias : Fin N → EReal}
    {y : (⟨2, ![M', K]⟩ : Shape).Idx → EReal} {y' : (⟨2, ![M', K']⟩ : Shape).Idx → EReal}
    {v : (⟨2, ![K, N]⟩ : Shape).Idx → EReal} {v' : (⟨2, ![K', N]⟩ : Shape).Idx → EReal} {bias' : Fin N → EReal}
    {r : Fin M} {r' : Fin M'} {c c' : Fin N}
    (hx : ∀ k, x (ix2 r k) = y (ix2 r' k)) (hw : ∀ k, w (ix2 k c) = v (ix2 k c'))
    (hx' : ∀ k, x' (ix2 r k) = y' (ix2 r' k)) (hw' : ∀ k, w' (ix2 k c) = v' (ix2 k c'))
    (hb : bias c = bias' c') :
    twoTermAt x x' w w' bias r c = twoTermAt y y' v v' bias' r' c' := by
  unfold twoTermAt
  rw [Finset.sum_congr rfl (fun k _ => by rw [hx k, hw k] : ∀ k ∈ Finset.univ, x (ix2 r k) * w (ix2 k c) = y (ix2 r' k) * v (ix2 k c')),
    Finset.sum_congr rfl (fun k _ => by rw [hx' k, hw' k] : ∀ k ∈ Finset.univ, x' (ix2 r k) * w' (ix2 k c) = y' (ix2 r' k) * v' (ix2 k c')), hb]

/-- The whole M x N array of those entries. -/
def twoTermLin {M K K' N : ℕ} (x : (⟨2, ![M, K]⟩ : Shape).Idx → EReal) (x' : (⟨2, ![M, K']⟩ : Shape).Idx → EReal)
    (w : (⟨2, ![K, N]⟩ : Shape).Idx → EReal) (w' : (⟨2, ![K', N]⟩ : Shape).Idx → EReal) (bias : Fin N → EReal) :
    (⟨2, ![M, N]⟩ : Shape).Idx → EReal :=
  fun i => twoTermAt x x' w w' bias (i 0) (i 1)

/-- The same array after the maximum with the value of the zero word, entry by entry. -/
def twoTermRelu {M K K' N : ℕ} (x : (⟨2, ![M, K]⟩ : Shape).Idx → EReal) (x' : (⟨2, ![M, K']⟩ : Shape).Idx → EReal)
    (w : (⟨2, ![K, N]⟩ : Shape).Idx → EReal) (w' : (⟨2, ![K', N]⟩ : Shape).Idx → EReal) (bias : Fin N → EReal) :
    (⟨2, ![M, N]⟩ : Shape).Idx → EReal :=
  fun i => max (twoTermAt x x' w w' bias (i 0) (i 1)) (Ideal.ofBits .f32 0x00000000#32)

/-- The vector unit's spelling: two products into zeros, their sum, plus a 1 x N row broadcast to M x N. -/
theorem twoTerm_matmul_apply {M K K' N : ℕ} {φ₁ φ₂ φ₃ φ₄ : FTy}
    {d : DotDims (⟨2, ![M, K]⟩ : Shape) (⟨2, ![K, N]⟩ : Shape) (⟨2, ![M, N]⟩ : Shape)} (hd : PlainDot d)
    {d' : DotDims (⟨2, ![M, K']⟩ : Shape) (⟨2, ![K', N]⟩ : Shape) (⟨2, ![M, N]⟩ : Shape)} (hd' : PlainDot d')
    (hb : (⟨2, ![1, N]⟩ : Shape).Broadcasts (⟨2, ![M, N]⟩ : Shape))
    (x : FVec Ideal (⟨2, ![M, K]⟩ : Shape) φ₁) (w : FVec Ideal (⟨2, ![K, N]⟩ : Shape) φ₂)
    (x' : FVec Ideal (⟨2, ![M, K']⟩ : Shape) φ₃) (w' : FVec Ideal (⟨2, ![K', N]⟩ : Shape) φ₄)
    (row : FVec Ideal (⟨2, ![1, N]⟩ : Shape) .f32) (r : Fin M) (c : Fin N) :
    addf (addf (matmul d none x w (constant (⟨2, ![M, N]⟩ : Shape) .f32 0x00000000#32))
        (matmul d' none x' w' (constant (⟨2, ![M, N]⟩ : Shape) .f32 0x00000000#32)))
      (broadcastTo (⟨2, ![M, N]⟩ : Shape) row hb) (ix2 r c)
      = twoTermAt x x' w w' (fun c => row (ix2 (0 : Fin 1) c)) r c := by
  show (FloatOps.matmul d none x w (constant (⟨2, ![M, N]⟩ : Shape) .f32 0x00000000#32) (ix2 r c)
      + FloatOps.matmul d' none x' w' (constant (⟨2, ![M, N]⟩ : Shape) .f32 0x00000000#32) (ix2 r c) : EReal)
      + broadcastTo (⟨2, ![M, N]⟩ : Shape) row hb (ix2 r c) = _
  rw [matmul_zero_ix2_any hd, matmul_zero_ix2_any hd', broadcastTo_1b_ab_apply]
  rfl

/-- The host's spelling: two contractions, their sum, plus a length-N vector as a 1 x N row broadcast to M x N. -/
theorem twoTerm_host_apply {M K K' N : ℕ} {φ₁ φ₂ φ₃ φ₄ : FTy}
    {d : DotDims (⟨2, ![M, K]⟩ : Shape) (⟨2, ![K, N]⟩ : Shape) (⟨2, ![M, N]⟩ : Shape)} (hd : PlainDot d)
    {d' : DotDims (⟨2, ![M, K']⟩ : Shape) (⟨2, ![K', N]⟩ : Shape) (⟨2, ![M, N]⟩ : Shape)} (hd' : PlainDot d')
    (hrow : (⟨1, ![N]⟩ : Shape).BroadcastsInDim (⟨2, ![1, N]⟩ : Shape) ![1])
    (hmat : (⟨2, ![1, N]⟩ : Shape).BroadcastsInDim (⟨2, ![M, N]⟩ : Shape) ![0, 1])
    (x : FVec Ideal (⟨2, ![M, K]⟩ : Shape) φ₁) (w : FVec Ideal (⟨2, ![K, N]⟩ : Shape) φ₂)
    (x' : FVec Ideal (⟨2, ![M, K']⟩ : Shape) φ₃) (w' : FVec Ideal (⟨2, ![K', N]⟩ : Shape) φ₄)
    (b : FVec Ideal (⟨1, ![N]⟩ : Shape) .f32) (r : Fin M) (c : Fin N) :
    addf (addf (Host.dotGeneral d none x w) (Host.dotGeneral d' none x' w'))
      (broadcastInDim (⟨2, ![M, N]⟩ : Shape) ![0, 1] hmat (broadcastInDim (⟨2, ![1, N]⟩ : Shape) ![1] hrow b)) (ix2 r c)
      = twoTermAt x x' w w' (fun c => b (ix1 c)) r c := by
  show (FloatOps.dotGeneral d none _ x w (ix2 r c) + FloatOps.dotGeneral d' none _ x' w' (ix2 r c) : EReal)
      + broadcastInDim (⟨2, ![M, N]⟩ : Shape) ![0, 1] hmat (broadcastInDim (⟨2, ![1, N]⟩ : Shape) ![1] hrow b) (ix2 r c) = _
  rw [dotGeneral_ix2_any hd, dotGeneral_ix2_any hd', broadcastInDim_row_mat_apply, broadcastInDim_vec_row_apply]
  rfl

/-- The maximum with a splat of the zero word, as the vector unit spells it. -/
theorem max_splat_apply {s : Shape} (v : FVec Ideal s .f32) (i : s.Idx) :
    maximumf v (broadcast s (Scalar.ofBits (F := Ideal) .f32 0x00000000#32)) i
      = max (v i : EReal) (Ideal.ofBits .f32 0x00000000#32) := rfl

/-- The maximum with a scalar zero constant broadcast to the whole shape, as the host spells it. -/
theorem max_host_zero_apply {s : Shape} (h : (⟨0, ![]⟩ : Shape).BroadcastsInDim s ![]) (v : FVec Ideal s .f32) (i : s.Idx) :
    maximumf v (broadcastInDim s ![] h (constant (F := Ideal) (⟨0, ![]⟩ : Shape) .f32 0x00000000#32)) i
      = max (v i : EReal) (Ideal.ofBits .f32 0x00000000#32) := by
  rw [maximumf_apply, broadcastInDim_scalar_apply]
  rfl

end Idealize.ShloMosaic.ValueIdx

end
-- ==== Proof.MovieLayer1.lean ====
/-
  Layer 1, movie side: the first pipelined region, read as a value.
  The region walks 10 grid points; point t stages rows 10000 t .. 10000 t + 9999 of the node features (21 columns)
  and of the aggregated neighbour features (20 columns), the two weight matrices and the bias row whole, and writes
  back rows 10000 t .. 10000 t + 9999 of the 100000 x 64 result. Entry (p, q) of what it writes is
  (row p of the feature block) · (column q of the first weight) + (row p of the neighbour block) · (column q of the
  second weight) + bias q, then the maximum with zero. A row of a block is a row of its array, so
  every written entry is the same function of the five arrays as the region finds them, evaluated at the entry's own
  row and column; the 10 row blocks tile the result; hence the whole result array is that function.
-/
import proofs.«145641_j47596827574948_1_alg».proof.Proof.Gen.KernelIdeal.Frame
import proofs.«145641_j47596827574948_1_alg».proof.Proof.KernelDots
import proofs.«145641_j47596827574948_1_alg».proof.Proof.LibTwoTermLayer
import Idealize.ShloMosaic.Lib.Pipeline.Value

set_option maxRecDepth 16384

noncomputable section

namespace Cert.KernelIdeal.MovieLayer1

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- One entry of what the body stores, from the five blocks it loaded: the larger of that sum and zero. -/
theorem pay_at (x0 : FVec Ideal S10000x21 .f32) (x1 : FVec Ideal S10000x20 .f32) (x2 : FVec Ideal S21x64 .f32)
    (x3 : FVec Ideal S20x64 .f32) (x4 : FVec Ideal S1x64 .f32) (p : Fin 10000) (q : Fin 64) :
    k0_pay1 (F := Ideal) x0 x1 x2 x3 x4 (ix2 p q) = max (twoTermAt x0 x1 x2 x3 (fun q => x4 (ix2 (0 : Fin 1) q)) p q) (Ideal.ofBits .f32 0x00000000#32) := by
  unfold k0_pay1
  rw [shapeCast_self, shapeCast_self]
  exact (max_splat_apply _ _).trans (congrArg (fun e => max e (Ideal.ofBits .f32 0x00000000#32))
    (twoTerm_matmul_apply Dots.plain_S10000x21_S21x64_S10000x64 Dots.plain_S10000x20_S20x64_S10000x64 _ _ _ _ _ _ p q))

/-- The index maps over the grid: the two row-blocked inputs and the output sit at row block t, column block 0; the
    weights and the bias row at block (0, 0). -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the feature block at point t is row 10000 t + p of the feature array. -/
theorem read_x0 (c : Dev nD) (t : Fin cfg0.N) (p : Fin 10000) (j : Fin 21) (i : S100000x21.Idx)
    (h0 : (i 0).val = t.val * 10000 + p.val) (h1 : (i 1).val = j.val) :
    (iblk0 V c 0 t : S10000x21.Idx → EReal) (ix2 p j) = (V c main_arg1 : S100000x21.Idx → EReal) i := by
  obtain ⟨e0, e1, -⟩ := idx_facts t
  show (V c main_arg1 : S100000x21.Idx → EReal) (((cfg0.win 0).blk t).view.emb (ix2 p j)) = _
  refine congrArg _ (funext fun a => Fin.ext ?_)
  match a with
  | ⟨0, _⟩ => show win0_0.index t (0 : Fin 2) * 10000 + 1 * p.val = (i 0).val; omega
  | ⟨1, _⟩ => show win0_0.index t (1 : Fin 2) * 21 + 1 * j.val = (i 1).val; omega

/-- Row p of the neighbour block at point t is row 10000 t + p of the aggregated array. -/
theorem read_x1 (c : Dev nD) (t : Fin cfg0.N) (p : Fin 10000) (j : Fin 20) (i : S100000x20.Idx)
    (h0 : (i 0).val = t.val * 10000 + p.val) (h1 : (i 1).val = j.val) :
    (iblk0 V c 1 t : S10000x20.Idx → EReal) (ix2 p j) = (V c main_v17 : S100000x20.Idx → EReal) i := by
  obtain ⟨-, -, e0, e1, -⟩ := idx_facts t
  show (V c main_v17 : S100000x20.Idx → EReal) (((cfg0.win 1).blk t).view.emb (ix2 p j)) = _
  refine congrArg _ (funext fun a => Fin.ext ?_)
  match a with
  | ⟨0, _⟩ => show win0_1.index t (0 : Fin 2) * 10000 + 1 * p.val = (i 0).val; omega
  | ⟨1, _⟩ => show win0_1.index t (1 : Fin 2) * 20 + 1 * j.val = (i 1).val; omega

/-- The first weight's block is the whole weight. -/
theorem read_x2 (c : Dev nD) (t : Fin cfg0.N) (j : Fin 21) (q : Fin 64) (i : S21x64.Idx)
    (h0 : (i 0).val = j.val) (h1 : (i 1).val = q.val) :
    (iblk0 V c 2 t : S21x64.Idx → EReal) (ix2 j q) = (V c main_arg5 : S21x64.Idx → EReal) i := by
  obtain ⟨-, -, -, -, e0, e1, -⟩ := idx_facts t
  show (V c main_arg5 : S21x64.Idx → EReal) (((cfg0.win 2).blk t).view.emb (ix2 j q)) = _
  refine congrArg _ (funext fun a => Fin.ext ?_)
  match a with
  | ⟨0, _⟩ => show win0_2.index t (0 : Fin 2) * 21 + 1 * j.val = (i 0).val; omega
  | ⟨1, _⟩ => show win0_2.index t (1 : Fin 2) * 64 + 1 * q.val = (i 1).val; omega

/-- The second weight's block is the whole weight. -/
theorem read_x3 (c : Dev nD) (t : Fin cfg0.N) (j : Fin 20) (q : Fin 64) (i : S20x64.Idx)
    (h0 : (i 0).val = j.val) (h1 : (i 1).val = q.val) :
    (iblk0 V c 3 t : S20x64.Idx → EReal) (ix2 j q) = (V c main_arg4 : S20x64.Idx → EReal) i := by
  obtain ⟨-, -, -, -, -, -, e0, e1, -⟩ := idx_facts t
  show (V c main_arg4 : S20x64.Idx → EReal) (((cfg0.win 3).blk t).view.emb (ix2 j q)) = _
  refine congrArg _ (funext fun a => Fin.ext ?_)
  match a with
  | ⟨0, _⟩ => show win0_3.index t (0 : Fin 2) * 20 + 1 * j.val = (i 0).val; omega
  | ⟨1, _⟩ => show win0_3.index t (1 : Fin 2) * 64 + 1 * q.val = (i 1).val; omega

/-- The bias row's block is the whole row. -/
theorem read_x4 (c : Dev nD) (t : Fin cfg0.N) (q : Fin 64) (i : S1x64.Idx)
    (h0 : (i 0).val = 0) (h1 : (i 1).val = q.val) :
    (iblk0 V c 4 t : S1x64.Idx → EReal) (ix2 (0 : Fin 1) q) = (V c main_v18 : S1x64.Idx → EReal) i := by
  obtain ⟨-, -, -, -, -, -, -, -, e0, e1, -⟩ := idx_facts t
  show (V c main_v18 : S1x64.Idx → EReal) (((cfg0.win 4).blk t).view.emb (ix2 (0 : Fin 1) q)) = _
  refine congrArg _ (funext fun a => Fin.ext ?_)
  match a with
  | ⟨0, _⟩ => show win0_4.index t (0 : Fin 2) * 1 + 1 * 0 = (i 0).val; omega
  | ⟨1, _⟩ => show win0_4.index t (1 : Fin 2) * 64 + 1 * q.val = (i 1).val; omega

/-- The layer as one function of the five arrays the region finds: entry (r, q) from row r of the two feature arrays,
    column q of the two weights and entry q of the bias row. -/
def layer (c : Dev nD) : S100000x64.Idx → EReal :=
  twoTermRelu (V c main_arg1 : S100000x21.Idx → EReal) (V c main_v17 : S100000x20.Idx → EReal)
    (V c main_arg5 : S21x64.Idx → EReal) (V c main_arg4 : S20x64.Idx → EReal)
    (fun q => (V c main_v18 : S1x64.Idx → EReal) (ix2 (0 : Fin 1) q))

/-- What point t writes back is block t of the layer function. -/
theorem flushed_eq (c : Dev nD) (t : Fin cfg0.N) :
    (dat0 (F := Ideal) V c).flushed 5 t = ((cfg0.win 5).blk t).view.read (Elt Ideal) (layer V c) := by
  show (cfg0.win 5).cut (grid0.coords t) ((dat0 V c).after 5 t) = _
  rw [after0_5]
  unfold out0_5
  rw [View.canon_unit_zero hz]
  simp only [View.ld_unit_zero (S := S10000x21) hz, View.ld_unit_zero (S := S10000x20) hz, View.ld_unit_zero (S := S21x64) hz, View.ld_unit_zero (S := S20x64) hz, View.ld_unit_zero (S := S1x64) hz]
  funext y
  obtain ⟨p, q, rfl⟩ : ∃ (p : Fin 10000) (q : Fin 64), y = ix2 p q := ⟨y 0, y 1, eq_ix2 y⟩
  obtain ⟨-, -, -, -, -, -, -, -, -, -, e0, e1⟩ := idx_facts t
  show k0_pay1 (F := Ideal) (iblk0 V c 0 t) (iblk0 V c 1 t) (iblk0 V c 2 t) (iblk0 V c 3 t) (iblk0 V c 4 t) (ix2 p q)
      = layer V c (((cfg0.win 5).blk t).view.emb (ix2 p q))
  refine (pay_at _ _ _ _ _ p q).trans ?_
  obtain ⟨i, hi, hr, hq⟩ : ∃ i : S100000x64.Idx, ((cfg0.win 5).blk t).view.emb (ix2 p q) = i
      ∧ (i 0).val = t.val * 10000 + p.val ∧ (i 1).val = q.val :=
    ⟨_, rfl, by show win0_5.index t (0 : Fin 2) * 10000 + 1 * p.val = _; omega,
      by show win0_5.index t (1 : Fin 2) * 64 + 1 * q.val = _; omega⟩
  rw [hi]
  unfold layer twoTermRelu
  exact congrArg (fun e => max e (Ideal.ofBits .f32 0x00000000#32)) (twoTermAt_congr
    (fun j => read_x0 V c t p j (ix2 (i 0) j) hr rfl) (fun j => read_x2 V c t j q (ix2 j (i 1)) rfl hq)
    (fun j => read_x1 V c t p j (ix2 (i 0) j) hr rfl) (fun j => read_x3 V c t j q (ix2 j (i 1)) rfl hq)
    (read_x4 V c t q (ix2 (0 : Fin 1) (i 1)) rfl hq))

/-- An index of the result is in point t's block iff each coordinate is in the block's range on its axis. -/
theorem mem_blk (t : Fin cfg0.N) (i : S100000x64.Idx) :
    i ∈ ((cfg0.win 5).blk t).view.set ↔ ∀ a : Fin 2, win0_5.index t a * S10000x64.size a ≤ (i a).val
      ∧ (i a).val < win0_5.index t a * S10000x64.size a + S10000x64.size a := by
  show i ∈ ((View.whole main_v19).slice (win0_5.rect t)).set ↔ _
  rw [View.set_slice_whole, Rect.mem_set_unit]
  exact Iff.rfl

/-- The 10 row blocks tile the result: row r lies in the block of point r / 10000. -/
theorem cover (i : S100000x64.Idx) : ∃ t : Fin cfg0.N, (cfg0.win 5).flush t = true ∧ i ∈ ((cfg0.win 5).blk t).view.set := by
  have hN : cfg0.N = 10 := N_0
  have hi0 : (i 0).val < 100000 := (i 0).isLt
  have hi1 : (i 1).val < 64 := (i 1).isLt
  have hlt : (i 0).val / 10000 < cfg0.N := by rw [hN]; omega
  refine ⟨⟨(i 0).val / 10000, hlt⟩, flush0_5 _, ?_⟩
  rw [mem_blk]
  obtain ⟨-, -, -, -, -, -, -, -, -, -, e0, e1⟩ := idx_facts ⟨(i 0).val / 10000, hlt⟩
  have e0' : win0_5.index ⟨(i 0).val / 10000, hlt⟩ (0 : Fin 2) = (i 0).val / 10000 := e0
  intro a
  match a with
  | ⟨0, _⟩ =>
    show win0_5.index ⟨(i 0).val / 10000, hlt⟩ (0 : Fin 2) * 10000 ≤ (i 0).val
      ∧ (i 0).val < win0_5.index ⟨(i 0).val / 10000, hlt⟩ (0 : Fin 2) * 10000 + 10000
    omega
  | ⟨1, _⟩ =>
    show win0_5.index ⟨(i 0).val / 10000, hlt⟩ (1 : Fin 2) * 64 ≤ (i 1).val
      ∧ (i 1).val < win0_5.index ⟨(i 0).val / 10000, hlt⟩ (1 : Fin 2) * 64 + 64
    omega

/-- After the region its result array is the layer function of the five arrays it found, whatever they were. -/
theorem final (c : Dev nD) : (dat0 (F := Ideal) V c).arrAt 5 cfg0.N = layer V c :=
  (dat0 (F := Ideal) V c).arrAt_eq_of_cover 5 (layer V c) (fun t _ => flushed_eq V c t) (cover)

end Cert.KernelIdeal.MovieLayer1

end
-- ==== Proof.RefLayers.lean ====
/-
  The reference, layer by layer. Each of its four GraphSAGE combines is two dot_general contractions added, plus the
  bias vector placed as a row and broadcast down the rows, and in the first layer a maximum with a zero constant; its
  eight contractions are plain products (their coordinate facts are the generated ones). So each layer's result is the
  layer function of its inputs, entry (r, q) being
  (row r of the node features) · (column q of the self weight) + (row r of the aggregated neighbours) · (column q of
  the neighbour weight) + bias q, then in layer 1 the maximum with zero.
-/
import proofs.«145641_j47596827574948_1_alg».proof.Proof.Gen.ReferenceIdeal.Read
import proofs.«145641_j47596827574948_1_alg».proof.Proof.LibTwoTermLayer

noncomputable section

namespace Cert.ReferenceIdeal.Layers

open Idealize.ShloMosaic Idealize.ShloMosaic.ValueIdx Cert.ReferenceIdeal Cert.ReferenceIdeal.Read

/-- The contraction of stage v18 is a plain product. -/
theorem plain_v18 : PlainDot dot_S100000x21_S21x64_S100000x64_1_0_0_1_n_n :=
  ⟨rfl, rfl, lhs_main_v18_0, lhs_main_v18_1, rhs_main_v18_0, rhs_main_v18_1⟩

/-- The contraction of stage v19 is a plain product. -/
theorem plain_v19 : PlainDot dot_S100000x20_S20x64_S100000x64_1_0_0_1_n_n :=
  ⟨rfl, rfl, lhs_main_v19_0, lhs_main_v19_1, rhs_main_v19_0, rhs_main_v19_1⟩

/-- The contraction of stage v42 is a plain product. -/
theorem plain_v42 : PlainDot dot_S200000x20_S20x64_S200000x64_1_0_0_1_n_n :=
  ⟨rfl, rfl, lhs_main_v42_0, lhs_main_v42_1, rhs_main_v42_0, rhs_main_v42_1⟩

/-- The contraction of stage v43 is a plain product. -/
theorem plain_v43 : PlainDot dot_S200000x21_S21x64_S200000x64_1_0_0_1_n_n :=
  ⟨rfl, rfl, lhs_main_v43_0, lhs_main_v43_1, rhs_main_v43_0, rhs_main_v43_1⟩

/-- The contraction of stage v68 is a plain product. -/
theorem plain_v68 : PlainDot dot_S100000x64_S64x32_S100000x32_1_0_0_1_n_n :=
  ⟨rfl, rfl, lhs_main_v68_0, lhs_main_v68_1, rhs_main_v68_0, rhs_main_v68_1⟩

/-- The contraction of stage v69 is a plain product. -/
theorem plain_v69 : PlainDot dot_S100000x64_S64x32_S100000x32_1_0_0_1_n_n :=
  ⟨rfl, rfl, lhs_main_v69_0, lhs_main_v69_1, rhs_main_v69_0, rhs_main_v69_1⟩

/-- The contraction of stage v92 is a plain product. -/
theorem plain_v92 : PlainDot dot_S200000x64_S64x32_S200000x32_1_0_0_1_n_n :=
  ⟨rfl, rfl, lhs_main_v92_0, lhs_main_v92_1, rhs_main_v92_0, rhs_main_v92_1⟩

/-- The contraction of stage v93 is a plain product. -/
theorem plain_v93 : PlainDot dot_S200000x64_S64x32_S200000x32_1_0_0_1_n_n :=
  ⟨rfl, rfl, lhs_main_v93_0, lhs_main_v93_1, rhs_main_v93_0, rhs_main_v93_1⟩

/-- Layer 1, movie side: the movie features against their weight, the mean of the rating users' features against theirs, the bias, the maximum with zero. -/
theorem layer_v48 (x0 : (⟨S200000x20, .f32⟩ : BufTy).Contents (Elt Ideal)) (x1 : (⟨S100000x21, .f32⟩ : BufTy).Contents (Elt Ideal)) (x2 : (⟨S2000000, .i32⟩ : BufTy).Contents (Elt Ideal)) (x3 : (⟨S2000000, .i32⟩ : BufTy).Contents (Elt Ideal)) (x4 : (⟨S20x64, .f32⟩ : BufTy).Contents (Elt Ideal)) (x5 : (⟨S21x64, .f32⟩ : BufTy).Contents (Elt Ideal)) (x6 : (⟨S64, .f32⟩ : BufTy).Contents (Elt Ideal)) :
    val_main_v48 (F := Ideal) x0 x1 x2 x3 x4 x5 x6 = twoTermRelu (x1) (val_main_v17 (F := Ideal) x0 x2 x3) x5 x4 (fun q => x6 (ix1 q)) := by
  funext i
  obtain ⟨r, q, rfl⟩ : ∃ (r : Fin 100000) (q : Fin 64), i = ix2 r q := ⟨i 0, i 1, eq_ix2 i⟩
  unfold val_main_v48 val_main_v23 val_main_v20 val_main_v18 val_main_v19 val_main_v22 val_main_v21 val_main_call0_v0 val_main_call0_cst
  exact (max_host_zero_apply _ _ (ix2 r q)).trans (congrArg (fun e => max e (Ideal.ofBits .f32 0x00000000#32))
    (twoTerm_host_apply plain_v18 plain_v19 _ _ _ _ _ _ _ r q))

/-- Layer 1, user side: the user features against their weight, the mean of the rated movies' features against theirs, the bias, the maximum with zero. -/
theorem layer_v49 (x0 : (⟨S200000x20, .f32⟩ : BufTy).Contents (Elt Ideal)) (x1 : (⟨S100000x21, .f32⟩ : BufTy).Contents (Elt Ideal)) (x2 : (⟨S2000000, .i32⟩ : BufTy).Contents (Elt Ideal)) (x3 : (⟨S2000000, .i32⟩ : BufTy).Contents (Elt Ideal)) (x7 : (⟨S21x64, .f32⟩ : BufTy).Contents (Elt Ideal)) (x8 : (⟨S20x64, .f32⟩ : BufTy).Contents (Elt Ideal)) (x9 : (⟨S64, .f32⟩ : BufTy).Contents (Elt Ideal)) :
    val_main_v49 (F := Ideal) x0 x1 x2 x3 x7 x8 x9 = twoTermRelu (x0) (val_main_v41 (F := Ideal) x1 x2 x3) x8 x7 (fun q => x9 (ix1 q)) := by
  funext i
  obtain ⟨r, q, rfl⟩ : ∃ (r : Fin 200000) (q : Fin 64), i = ix2 r q := ⟨i 0, i 1, eq_ix2 i⟩
  unfold val_main_v49 val_main_v47 val_main_v44 val_main_v42 val_main_v43 val_main_v46 val_main_v45 val_main_call1_v0 val_main_call1_cst
  exact (max_host_zero_apply _ _ (ix2 r q)).trans (congrArg (fun e => max e (Ideal.ofBits .f32 0x00000000#32))
    (twoTerm_host_apply plain_v42 plain_v43 _ _ _ _ _ _ _ r q))

/-- Layer 2, movie side: the movies' hidden features against their weight, the mean of the rating users' hidden features against theirs, the bias. -/
theorem layer_v73 (x0 : (⟨S200000x20, .f32⟩ : BufTy).Contents (Elt Ideal)) (x1 : (⟨S100000x21, .f32⟩ : BufTy).Contents (Elt Ideal)) (x2 : (⟨S2000000, .i32⟩ : BufTy).Contents (Elt Ideal)) (x3 : (⟨S2000000, .i32⟩ : BufTy).Contents (Elt Ideal)) (x4 : (⟨S20x64, .f32⟩ : BufTy).Contents (Elt Ideal)) (x5 : (⟨S21x64, .f32⟩ : BufTy).Contents (Elt Ideal)) (x6 : (⟨S64, .f32⟩ : BufTy).Contents (Elt Ideal)) (x7 : (⟨S21x64, .f32⟩ : BufTy).Contents (Elt Ideal)) (x8 : (⟨S20x64, .f32⟩ : BufTy).Contents (Elt Ideal)) (x9 : (⟨S64, .f32⟩ : BufTy).Contents (Elt Ideal)) (x10 : (⟨S64x32, .f32⟩ : BufTy).Contents (Elt Ideal)) (x11 : (⟨S64x32, .f32⟩ : BufTy).Contents (Elt Ideal)) (x12 : (⟨S32, .f32⟩ : BufTy).Contents (Elt Ideal)) :
    val_main_v73 (F := Ideal) x0 x1 x2 x3 x4 x5 x6 x7 x8 x9 x10 x11 x12 = twoTermLin (val_main_v48 (F := Ideal) x0 x1 x2 x3 x4 x5 x6) (val_main_v67 (F := Ideal) x0 x1 x2 x3 x7 x8 x9) x11 x10 (fun q => x12 (ix1 q)) := by
  funext i
  obtain ⟨r, q, rfl⟩ : ∃ (r : Fin 100000) (q : Fin 32), i = ix2 r q := ⟨i 0, i 1, eq_ix2 i⟩
  unfold val_main_v73 val_main_v70 val_main_v68 val_main_v69 val_main_v72 val_main_v71
  exact twoTerm_host_apply plain_v68 plain_v69 _ _ _ _ _ _ _ r q

/-- Layer 2, user side: the users' hidden features against their weight, the mean of the rated movies' hidden features against theirs, the bias. -/
theorem layer_v97 (x0 : (⟨S200000x20, .f32⟩ : BufTy).Contents (Elt Ideal)) (x1 : (⟨S100000x21, .f32⟩ : BufTy).Contents (Elt Ideal)) (x2 : (⟨S2000000, .i32⟩ : BufTy).Contents (Elt Ideal)) (x3 : (⟨S2000000, .i32⟩ : BufTy).Contents (Elt Ideal)) (x4 : (⟨S20x64, .f32⟩ : BufTy).Contents (Elt Ideal)) (x5 : (⟨S21x64, .f32⟩ : BufTy).Contents (Elt Ideal)) (x6 : (⟨S64, .f32⟩ : BufTy).Contents (Elt Ideal)) (x7 : (⟨S21x64, .f32⟩ : BufTy).Contents (Elt Ideal)) (x8 : (⟨S20x64, .f32⟩ : BufTy).Contents (Elt Ideal)) (x9 : (⟨S64, .f32⟩ : BufTy).Contents (Elt Ideal)) (x13 : (⟨S64x32, .f32⟩ : BufTy).Contents (Elt Ideal)) (x14 : (⟨S64x32, .f32⟩ : BufTy).Contents (Elt Ideal)) (x15 : (⟨S32, .f32⟩ : BufTy).Contents (Elt Ideal)) :
    val_main_v97 (F := Ideal) x0 x1 x2 x3 x4 x5 x6 x7 x8 x9 x13 x14 x15 = twoTermLin (val_main_v49 (F := Ideal) x0 x1 x2 x3 x7 x8 x9) (val_main_v91 (F := Ideal) x0 x1 x2 x3 x4 x5 x6) x14 x13 (fun q => x15 (ix1 q)) := by
  funext i
  obtain ⟨r, q, rfl⟩ : ∃ (r : Fin 200000) (q : Fin 32), i = ix2 r q := ⟨i 0, i 1, eq_ix2 i⟩
  unfold val_main_v97 val_main_v94 val_main_v92 val_main_v93 val_main_v96 val_main_v95
  exact twoTerm_host_apply plain_v92 plain_v93 _ _ _ _ _ _ _ r q

end Cert.ReferenceIdeal.Layers

end
-- ==== Proof.Fold1.lean ====
/-
  The kernel's run, first stage: from the launch to the exit of the first region. The first stretch of host
  operations computes the mean over each movie's rating users of the user features (a gather by the user index, a
  scatter-add by the movie index, a count, a division) and recasts the first bias as a row; none of it touches an
  argument. These are the same host operations, on the same arrays, as the reference's first aggregation, so the
  array the region reads is the reference's own function of the arguments; nothing inside the gather or the scatter is
  used. The region then leaves, in its result buffer, the layer function of what it read, and that is the
  reference's first movie layer of the arguments.
-/
import proofs.«145641_j47596827574948_1_alg».proof.Proof.MovieLayer1
import proofs.«145641_j47596827574948_1_alg».proof.Proof.RefLayers
import Idealize.ShloMosaic.Lib.StableHlo.Run
import Idealize.ShloMosaic.Lib.ValueLayout

set_option maxRecDepth 16384

noncomputable section

namespace Cert.KernelIdeal.Fold

open Idealize.ShloMosaic Idealize.ShloMosaic.TcCoe Idealize.SL.Sem Idealize.ShloMosaic.StableHlo Idealize.ShloMosaic.ValueIdx
open Cert.KernelIdeal Cert.KernelIdeal.Gen
open Cert.ReferenceIdeal.Read (val_main_v17 val_main_v48)

variable (m : (ℓ : Loc nD τ sig) → Buf (Elt Ideal) ℓ) (ρ : Dev nD → PrngReg) (c : Dev nD)

/-- A stretch of host operations leaves a buffer none of them writes as it found it. -/
local macro "untouched " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- The first aggregation, as the first region finds it, is the reference's first aggregation of the arguments. -/
theorem agg_u2m_1 : W1 m ρ c (Proc.devRef .tc main_v17) = val_main_v17 (F := Ideal) (m ((c : Thread nD τ).loc main_arg0)) (m ((c : Thread nD τ).loc main_arg2)) (m ((c : Thread nD τ).loc main_arg3)) := by
  after_results_simp
  rfl

/-- The first bias, recast as a row. -/
theorem bias_row_1 : W1 m ρ c (Proc.devRef .tc main_v18)
    = shapeCast S1x64 ((m ((c : Thread nD τ).loc main_arg6)) : S64.Idx → EReal) Facts₀.shapeCasts_S64_S1x64 := by
  after_results_simp
  rfl

theorem W1_arg1 : W1 m ρ c (Proc.devRef .tc main_arg1) = (m ((c : Thread nD τ).loc main_arg1)) := by
  refine Eq.trans ?_ (rfl : W0 m ρ c (Proc.devRef .tc main_arg1) = _)
  untouched hostOps0
theorem W1_arg5 : W1 m ρ c (Proc.devRef .tc main_arg5) = (m ((c : Thread nD τ).loc main_arg5)) := by
  refine Eq.trans ?_ (rfl : W0 m ρ c (Proc.devRef .tc main_arg5) = _)
  untouched hostOps0
theorem W1_arg4 : W1 m ρ c (Proc.devRef .tc main_arg4) = (m ((c : Thread nD τ).loc main_arg4)) := by
  refine Eq.trans ?_ (rfl : W0 m ρ c (Proc.devRef .tc main_arg4) = _)
  untouched hostOps0

/-- After the first region its result buffer holds the reference's first movie layer of the arguments. -/
theorem movie_hidden : W2 m ρ c (Proc.devRef .tc main_v19)
    = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W2_arr m ρ c 5).trans ((MovieLayer1.final (V1 m ρ) c).trans ?_)
  rw [Cert.ReferenceIdeal.Layers.layer_v48]
  unfold MovieLayer1.layer
  dsimp only [V1]
  rw [W1_arg1, agg_u2m_1, W1_arg5, W1_arg4, bias_row_1]
  refine congrArg _ (funext fun q => ?_)
  exact shapeCast_a_1a_apply _ _ (0 : Fin 1) q

end Cert.KernelIdeal.Fold

end
-- ==== Proof.UserLayer1.lean ====
/-
  Layer 1, user side: the second pipelined region, read as a value.
  The region walks 20 grid points; point t stages rows 10000 t .. 10000 t + 9999 of the node features (20 columns)
  and of the aggregated neighbour features (21 columns), the two weight matrices and the bias row whole, and writes
  back rows 10000 t .. 10000 t + 9999 of the 200000 x 64 result. Entry (p, q) of what it writes is
  (row p of the feature block) · (column q of the first weight) + (row p of the neighbour block) · (column q of the
  second weight) + bias q, then the maximum with zero. A row of a block is a row of its array, so
  every written entry is the same function of the five arrays as the region finds them, evaluated at the entry's own
  row and column; the 20 row blocks tile the result; hence the whole result array is that function.
-/
import proofs.«145641_j47596827574948_1_alg».proof.Proof.Gen.KernelIdeal.Frame
import proofs.«145641_j47596827574948_1_alg».proof.Proof.KernelDots
import proofs.«145641_j47596827574948_1_alg».proof.Proof.LibTwoTermLayer
import Idealize.ShloMosaic.Lib.Pipeline.Value

set_option maxRecDepth 16384

noncomputable section

namespace Cert.KernelIdeal.UserLayer1

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- One entry of what the body stores, from the five blocks it loaded: the larger of that sum and zero. -/
theorem pay_at (x0 : FVec Ideal S10000x20 .f32) (x1 : FVec Ideal S10000x21 .f32) (x2 : FVec Ideal S20x64 .f32)
    (x3 : FVec Ideal S21x64 .f32) (x4 : FVec Ideal S1x64 .f32) (p : Fin 10000) (q : Fin 64) :
    k1_pay1 (F := Ideal) x0 x1 x2 x3 x4 (ix2 p q) = max (twoTermAt x0 x1 x2 x3 (fun q => x4 (ix2 (0 : Fin 1) q)) p q) (Ideal.ofBits .f32 0x00000000#32) := by
  unfold k1_pay1
  rw [shapeCast_self, shapeCast_self]
  exact (max_splat_apply _ _).trans (congrArg (fun e => max e (Ideal.ofBits .f32 0x00000000#32))
    (twoTerm_matmul_apply Dots.plain_S10000x20_S20x64_S10000x64 Dots.plain_S10000x21_S21x64_S10000x64 _ _ _ _ _ _ p q))

/-- The index maps over the grid: the two row-blocked inputs and the output sit at row block t, column block 0; the
    weights and the bias row at block (0, 0). -/
theorem idx_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the feature block at point t is row 10000 t + p of the feature array. -/
theorem read_x0 (c : Dev nD) (t : Fin cfg1.N) (p : Fin 10000) (j : Fin 20) (i : S200000x20.Idx)
    (h0 : (i 0).val = t.val * 10000 + p.val) (h1 : (i 1).val = j.val) :
    (iblk1 V c 0 t : S10000x20.Idx → EReal) (ix2 p j) = (V c main_arg0 : S200000x20.Idx → EReal) i := by
  obtain ⟨e0, e1, -⟩ := idx_facts t
  show (V c main_arg0 : S200000x20.Idx → EReal) (((cfg1.win 0).blk t).view.emb (ix2 p j)) = _
  refine congrArg _ (funext fun a => Fin.ext ?_)
  match a with
  | ⟨0, _⟩ => show win1_0.index t (0 : Fin 2) * 10000 + 1 * p.val = (i 0).val; omega
  | ⟨1, _⟩ => show win1_0.index t (1 : Fin 2) * 20 + 1 * j.val = (i 1).val; omega

/-- Row p of the neighbour block at point t is row 10000 t + p of the aggregated array. -/
theorem read_x1 (c : Dev nD) (t : Fin cfg1.N) (p : Fin 10000) (j : Fin 21) (i : S200000x21.Idx)
    (h0 : (i 0).val = t.val * 10000 + p.val) (h1 : (i 1).val = j.val) :
    (iblk1 V c 1 t : S10000x21.Idx → EReal) (ix2 p j) = (V c main_v37 : S200000x21.Idx → EReal) i := by
  obtain ⟨-, -, e0, e1, -⟩ := idx_facts t
  show (V c main_v37 : S200000x21.Idx → EReal) (((cfg1.win 1).blk t).view.emb (ix2 p j)) = _
  refine congrArg _ (funext fun a => Fin.ext ?_)
  match a with
  | ⟨0, _⟩ => show win1_1.index t (0 : Fin 2) * 10000 + 1 * p.val = (i 0).val; omega
  | ⟨1, _⟩ => show win1_1.index t (1 : Fin 2) * 21 + 1 * j.val = (i 1).val; omega

/-- The first weight's block is the whole weight. -/
theorem read_x2 (c : Dev nD) (t : Fin cfg1.N) (j : Fin 20) (q : Fin 64) (i : S20x64.Idx)
    (h0 : (i 0).val = j.val) (h1 : (i 1).val = q.val) :
    (iblk1 V c 2 t : S20x64.Idx → EReal) (ix2 j q) = (V c main_arg8 : S20x64.Idx → EReal) i := by
  obtain ⟨-, -, -, -, e0, e1, -⟩ := idx_facts t
  show (V c main_arg8 : S20x64.Idx → EReal) (((cfg1.win 2).blk t).view.emb (ix2 j q)) = _
  refine congrArg _ (funext fun a => Fin.ext ?_)
  match a with
  | ⟨0, _⟩ => show win1_2.index t (0 : Fin 2) * 20 + 1 * j.val = (i 0).val; omega
  | ⟨1, _⟩ => show win1_2.index t (1 : Fin 2) * 64 + 1 * q.val = (i 1).val; omega

/-- The second weight's block is the whole weight. -/
theorem read_x3 (c : Dev nD) (t : Fin cfg1.N) (j : Fin 21) (q : Fin 64) (i : S21x64.Idx)
    (h0 : (i 0).val = j.val) (h1 : (i 1).val = q.val) :
    (iblk1 V c 3 t : S21x64.Idx → EReal) (ix2 j q) = (V c main_arg7 : S21x64.Idx → EReal) i := by
  obtain ⟨-, -, -, -, -, -, e0, e1, -⟩ := idx_facts t
  show (V c main_arg7 : S21x64.Idx → EReal) (((cfg1.win 3).blk t).view.emb (ix2 j q)) = _
  refine congrArg _ (funext fun a => Fin.ext ?_)
  match a with
  | ⟨0, _⟩ => show win1_3.index t (0 : Fin 2) * 21 + 1 * j.val = (i 0).val; omega
  | ⟨1, _⟩ => show win1_3.index t (1 : Fin 2) * 64 + 1 * q.val = (i 1).val; omega

/-- The bias row's block is the whole row. -/
theorem read_x4 (c : Dev nD) (t : Fin cfg1.N) (q : Fin 64) (i : S1x64.Idx)
    (h0 : (i 0).val = 0) (h1 : (i 1).val = q.val) :
    (iblk1 V c 4 t : S1x64.Idx → EReal) (ix2 (0 : Fin 1) q) = (V c main_v38 : S1x64.Idx → EReal) i := by
  obtain ⟨-, -, -, -, -, -, -, -, e0, e1, -⟩ := idx_facts t
  show (V c main_v38 : S1x64.Idx → EReal) (((cfg1.win 4).blk t).view.emb (ix2 (0 : Fin 1) q)) = _
  refine congrArg _ (funext fun a => Fin.ext ?_)
  match a with
  | ⟨0, _⟩ => show win1_4.index t (0 : Fin 2) * 1 + 1 * 0 = (i 0).val; omega
  | ⟨1, _⟩ => show win1_4.index t (1 : Fin 2) * 64 + 1 * q.val = (i 1).val; omega

/-- The layer as one function of the five arrays the region finds: entry (r, q) from row r of the two feature arrays,
    column q of the two weights and entry q of the bias row. -/
def layer (c : Dev nD) : S200000x64.Idx → EReal :=
  twoTermRelu (V c main_arg0 : S200000x20.Idx → EReal) (V c main_v37 : S200000x21.Idx → EReal)
    (V c main_arg8 : S20x64.Idx → EReal) (V c main_arg7 : S21x64.Idx → EReal)
    (fun q => (V c main_v38 : S1x64.Idx → EReal) (ix2 (0 : Fin 1) q))

/-- What point t writes back is block t of the layer function. -/
theorem flushed_eq (c : Dev nD) (t : Fin cfg1.N) :
    (dat1 (F := Ideal) V c).flushed 5 t = ((cfg1.win 5).blk t).view.read (Elt Ideal) (layer V c) := by
  show (cfg1.win 5).cut (grid1.coords t) ((dat1 V c).after 5 t) = _
  rw [after1_5]
  unfold out1_5
  rw [View.canon_unit_zero hz]
  simp only [View.ld_unit_zero (S := S10000x20) hz, View.ld_unit_zero (S := S10000x21) hz, View.ld_unit_zero (S := S20x64) hz, View.ld_unit_zero (S := S21x64) hz, View.ld_unit_zero (S := S1x64) hz]
  funext y
  obtain ⟨p, q, rfl⟩ : ∃ (p : Fin 10000) (q : Fin 64), y = ix2 p q := ⟨y 0, y 1, eq_ix2 y⟩
  obtain ⟨-, -, -, -, -, -, -, -, -, -, e0, e1⟩ := idx_facts t
  show k1_pay1 (F := Ideal) (iblk1 V c 0 t) (iblk1 V c 1 t) (iblk1 V c 2 t) (iblk1 V c 3 t) (iblk1 V c 4 t) (ix2 p q)
      = layer V c (((cfg1.win 5).blk t).view.emb (ix2 p q))
  refine (pay_at _ _ _ _ _ p q).trans ?_
  obtain ⟨i, hi, hr, hq⟩ : ∃ i : S200000x64.Idx, ((cfg1.win 5).blk t).view.emb (ix2 p q) = i
      ∧ (i 0).val = t.val * 10000 + p.val ∧ (i 1).val = q.val :=
    ⟨_, rfl, by show win1_5.index t (0 : Fin 2) * 10000 + 1 * p.val = _; omega,
      by show win1_5.index t (1 : Fin 2) * 64 + 1 * q.val = _; omega⟩
  rw [hi]
  unfold layer twoTermRelu
  exact congrArg (fun e => max e (Ideal.ofBits .f32 0x00000000#32)) (twoTermAt_congr
    (fun j => read_x0 V c t p j (ix2 (i 0) j) hr rfl) (fun j => read_x2 V c t j q (ix2 j (i 1)) rfl hq)
    (fun j => read_x1 V c t p j (ix2 (i 0) j) hr rfl) (fun j => read_x3 V c t j q (ix2 j (i 1)) rfl hq)
    (read_x4 V c t q (ix2 (0 : Fin 1) (i 1)) rfl hq))

/-- An index of the result is in point t's block iff each coordinate is in the block's range on its axis. -/
theorem mem_blk (t : Fin cfg1.N) (i : S200000x64.Idx) :
    i ∈ ((cfg1.win 5).blk t).view.set ↔ ∀ a : Fin 2, win1_5.index t a * S10000x64.size a ≤ (i a).val
      ∧ (i a).val < win1_5.index t a * S10000x64.size a + S10000x64.size a := by
  show i ∈ ((View.whole main_v39).slice (win1_5.rect t)).set ↔ _
  rw [View.set_slice_whole, Rect.mem_set_unit]
  exact Iff.rfl

/-- The 20 row blocks tile the result: row r lies in the block of point r / 10000. -/
theorem cover (i : S200000x64.Idx) : ∃ t : Fin cfg1.N, (cfg1.win 5).flush t = true ∧ i ∈ ((cfg1.win 5).blk t).view.set := by
  have hN : cfg1.N = 20 := N_1
  have hi0 : (i 0).val < 200000 := (i 0).isLt
  have hi1 : (i 1).val < 64 := (i 1).isLt
  have hlt : (i 0).val / 10000 < cfg1.N := by rw [hN]; omega
  refine ⟨⟨(i 0).val / 10000, hlt⟩, flush1_5 _, ?_⟩
  rw [mem_blk]
  obtain ⟨-, -, -, -, -, -, -, -, -, -, e0, e1⟩ := idx_facts ⟨(i 0).val / 10000, hlt⟩
  have e0' : win1_5.index ⟨(i 0).val / 10000, hlt⟩ (0 : Fin 2) = (i 0).val / 10000 := e0
  intro a
  match a with
  | ⟨0, _⟩ =>
    show win1_5.index ⟨(i 0).val / 10000, hlt⟩ (0 : Fin 2) * 10000 ≤ (i 0).val
      ∧ (i 0).val < win1_5.index ⟨(i 0).val / 10000, hlt⟩ (0 : Fin 2) * 10000 + 10000
    omega
  | ⟨1, _⟩ =>
    show win1_5.index ⟨(i 0).val / 10000, hlt⟩ (1 : Fin 2) * 64 ≤ (i 1).val
      ∧ (i 1).val < win1_5.index ⟨(i 0).val / 10000, hlt⟩ (1 : Fin 2) * 64 + 64
    omega

/-- After the region its result array is the layer function of the five arrays it found, whatever they were. -/
theorem final (c : Dev nD) : (dat1 (F := Ideal) V c).arrAt 5 cfg1.N = layer V c :=
  (dat1 (F := Ideal) V c).arrAt_eq_of_cover 5 (layer V c) (fun t _ => flushed_eq V c t) (cover)

end Cert.KernelIdeal.UserLayer1

end
-- ==== Proof.Fold2.lean ====
/-
  The kernel's run, second stage: from the first region's exit to the second region's exit. The first region wrote
  only its own result buffer, so every argument is still as launched. The second stretch of host operations computes
  the mean over each user's rated movies of the movie features and recasts the second bias as a row: the reference's
  second aggregation, on the same arrays. The second region then leaves the reference's first user layer of the
  arguments.
-/
import proofs.«145641_j47596827574948_1_alg».proof.Proof.Fold1
import proofs.«145641_j47596827574948_1_alg».proof.Proof.UserLayer1
import Idealize.ShloMosaic.Lib.StableHlo.Run
import Idealize.ShloMosaic.Lib.ValueLayout

set_option maxRecDepth 16384

noncomputable section

namespace Cert.KernelIdeal.Fold

open Idealize.ShloMosaic Idealize.ShloMosaic.TcCoe Idealize.SL.Sem Idealize.ShloMosaic.StableHlo Idealize.ShloMosaic.ValueIdx
open Cert.KernelIdeal Cert.KernelIdeal.Gen
open Cert.ReferenceIdeal.Read (val_main_v41 val_main_v48 val_main_v49)

variable (m : (ℓ : Loc nD τ sig) → Buf (Elt Ideal) ℓ) (ρ : Dev nD → PrngReg) (c : Dev nD)

/-- A stretch of host operations leaves a buffer none of them writes as it found it. -/
local macro "untouched " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

theorem W2_arg0 : W2 m ρ c (Proc.devRef .tc main_arg0) = (m ((c : Thread nD τ).loc main_arg0)) :=
  (W2_of_ne m ρ c main_arg0 (by decide)).trans (by
    refine Eq.trans ?_ (rfl : W0 m ρ c (Proc.devRef .tc main_arg0) = _)
    untouched hostOps0)

theorem W2_arg1 : W2 m ρ c (Proc.devRef .tc main_arg1) = (m ((c : Thread nD τ).loc main_arg1)) :=
  ((W2_arr m ρ c 0).trans (((dat0 (V1 m ρ) c).arrAt_in 0 rfl _).trans (A_eq0 (V1 m ρ) c 0))).trans (W1_arg1 m ρ c)

theorem W2_arg2 : W2 m ρ c (Proc.devRef .tc main_arg2) = (m ((c : Thread nD τ).loc main_arg2)) :=
  (W2_of_ne m ρ c main_arg2 (by decide)).trans (by
    refine Eq.trans ?_ (rfl : W0 m ρ c (Proc.devRef .tc main_arg2) = _)
    untouched hostOps0)

theorem W2_arg3 : W2 m ρ c (Proc.devRef .tc main_arg3) = (m ((c : Thread nD τ).loc main_arg3)) :=
  (W2_of_ne m ρ c main_arg3 (by decide)).trans (by
    refine Eq.trans ?_ (rfl : W0 m ρ c (Proc.devRef .tc main_arg3) = _)
    untouched hostOps0)

theorem W2_arg7 : W2 m ρ c (Proc.devRef .tc main_arg7) = (m ((c : Thread nD τ).loc main_arg7)) :=
  (W2_of_ne m ρ c main_arg7 (by decide)).trans (by
    refine Eq.trans ?_ (rfl : W0 m ρ c (Proc.devRef .tc main_arg7) = _)
    untouched hostOps0)

theorem W2_arg8 : W2 m ρ c (Proc.devRef .tc main_arg8) = (m ((c : Thread nD τ).loc main_arg8)) :=
  (W2_of_ne m ρ c main_arg8 (by decide)).trans (by
    refine Eq.trans ?_ (rfl : W0 m ρ c (Proc.devRef .tc main_arg8) = _)
    untouched hostOps0)

theorem W2_arg9 : W2 m ρ c (Proc.devRef .tc main_arg9) = (m ((c : Thread nD τ).loc main_arg9)) :=
  (W2_of_ne m ρ c main_arg9 (by decide)).trans (by
    refine Eq.trans ?_ (rfl : W0 m ρ c (Proc.devRef .tc main_arg9) = _)
    untouched hostOps0)

/-- The second aggregation, as the second region finds it, is the reference's second aggregation of the arguments. -/
theorem agg_m2u_1 : W3 m ρ c (Proc.devRef .tc main_v37) = val_main_v41 (F := Ideal) (m ((c : Thread nD τ).loc main_arg1)) (m ((c : Thread nD τ).loc main_arg2)) (m ((c : Thread nD τ).loc main_arg3)) := by
  after_results_simp
  rw [W2_arg1, W2_arg2, W2_arg3]
  rfl

/-- The second bias, recast as a row. -/
theorem bias_row_2 : W3 m ρ c (Proc.devRef .tc main_v38)
    = shapeCast S1x64 ((m ((c : Thread nD τ).loc main_arg9)) : S64.Idx → EReal) Facts₀.shapeCasts_S64_S1x64 := by
  after_results_simp
  rw [W2_arg9]
  rfl

theorem W3_arg0 : W3 m ρ c (Proc.devRef .tc main_arg0) = (m ((c : Thread nD τ).loc main_arg0)) :=
  ((by untouched hostOps1 : W3 m ρ c (Proc.devRef .tc main_arg0) = W2 m ρ c (Proc.devRef .tc main_arg0)).trans (W2_arg0 m ρ c))
theorem W3_arg8 : W3 m ρ c (Proc.devRef .tc main_arg8) = (m ((c : Thread nD τ).loc main_arg8)) :=
  ((by untouched hostOps1 : W3 m ρ c (Proc.devRef .tc main_arg8) = W2 m ρ c (Proc.devRef .tc main_arg8)).trans (W2_arg8 m ρ c))
theorem W3_arg7 : W3 m ρ c (Proc.devRef .tc main_arg7) = (m ((c : Thread nD τ).loc main_arg7)) :=
  ((by untouched hostOps1 : W3 m ρ c (Proc.devRef .tc main_arg7) = W2 m ρ c (Proc.devRef .tc main_arg7)).trans (W2_arg7 m ρ c))

/-- After the second region its result buffer holds the reference's first user layer of the arguments. -/
theorem user_hidden : W4 m ρ c (Proc.devRef .tc main_v39)
    = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) := by
  refine (W4_arr m ρ c 5).trans ((UserLayer1.final (V3 m ρ) c).trans ?_)
  rw [Cert.ReferenceIdeal.Layers.layer_v49]
  unfold UserLayer1.layer
  dsimp only [V3]
  rw [W3_arg0, agg_m2u_1, W3_arg8, W3_arg7, bias_row_2]
  refine congrArg _ (funext fun q => ?_)
  exact shapeCast_a_1a_apply _ _ (0 : Fin 1) q

/-- The first region's result is still in place at the second region's exit. -/
theorem W4_v19 : W4 m ρ c (Proc.devRef .tc main_v19) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W4_of_ne m ρ c main_v19 (by decide)).trans ((by untouched hostOps1 : W3 m ρ c (Proc.devRef .tc main_v19) = W2 m ρ c (Proc.devRef .tc main_v19)).trans (movie_hidden m ρ c))

end Cert.KernelIdeal.Fold

end
-- ==== Proof.MovieLayer2.lean ====
/-
  Layer 2, movie side: the third pipelined region, read as a value.
  The region walks 10 grid points; point t stages rows 10000 t .. 10000 t + 9999 of the node features (64 columns)
  and of the aggregated neighbour features (64 columns), the two weight matrices and the bias row whole, and writes
  back rows 10000 t .. 10000 t + 9999 of the 100000 x 32 result. Entry (p, q) of what it writes is
  (row p of the feature block) · (column q of the first weight) + (row p of the neighbour block) · (column q of the
  second weight) + bias q. A row of a block is a row of its array, so
  every written entry is the same function of the five arrays as the region finds them, evaluated at the entry's own
  row and column; the 10 row blocks tile the result; hence the whole result array is that function.
-/
import proofs.«145641_j47596827574948_1_alg».proof.Proof.Gen.KernelIdeal.Frame
import proofs.«145641_j47596827574948_1_alg».proof.Proof.KernelDots
import proofs.«145641_j47596827574948_1_alg».proof.Proof.LibTwoTermLayer
import Idealize.ShloMosaic.Lib.Pipeline.Value

set_option maxRecDepth 16384

noncomputable section

namespace Cert.KernelIdeal.MovieLayer2

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- One entry of what the body stores, from the five blocks it loaded: that sum. -/
theorem pay_at (x0 : FVec Ideal S10000x64 .f32) (x1 : FVec Ideal S10000x64 .f32) (x2 : FVec Ideal S64x32 .f32)
    (x3 : FVec Ideal S64x32 .f32) (x4 : FVec Ideal S1x32 .f32) (p : Fin 10000) (q : Fin 32) :
    k2_pay1 (F := Ideal) x0 x1 x2 x3 x4 (ix2 p q) = twoTermAt x0 x1 x2 x3 (fun q => x4 (ix2 (0 : Fin 1) q)) p q := by
  unfold k2_pay1
  rw [shapeCast_self, shapeCast_self, shapeCast_self]
  exact twoTerm_matmul_apply Dots.plain_S10000x64_S64x32_S10000x32 Dots.plain_S10000x64_S64x32_S10000x32 _ _ _ _ _ _ p q

/-- The index maps over the grid: the two row-blocked inputs and the output sit at row block t, column block 0; the
    weights and the bias row at block (0, 0). -/
theorem idx_facts : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of the feature block at point t is row 10000 t + p of the feature array. -/
theorem read_x0 (c : Dev nD) (t : Fin cfg2.N) (p : Fin 10000) (j : Fin 64) (i : S100000x64.Idx)
    (h0 : (i 0).val = t.val * 10000 + p.val) (h1 : (i 1).val = j.val) :
    (iblk2 V c 0 t : S10000x64.Idx → EReal) (ix2 p j) = (V c main_v19 : S100000x64.Idx → EReal) i := by
  obtain ⟨e0, e1, -⟩ := idx_facts t
  show (V c main_v19 : S100000x64.Idx → EReal) (((cfg2.win 0).blk t).view.emb (ix2 p j)) = _
  refine congrArg _ (funext fun a => Fin.ext ?_)
  match a with
  | ⟨0, _⟩ => show win2_0.index t (0 : Fin 2) * 10000 + 1 * p.val = (i 0).val; omega
  | ⟨1, _⟩ => show win2_0.index t (1 : Fin 2) * 64 + 1 * j.val = (i 1).val; omega

/-- Row p of the neighbour block at point t is row 10000 t + p of the aggregated array. -/
theorem read_x1 (c : Dev nD) (t : Fin cfg2.N) (p : Fin 10000) (j : Fin 64) (i : S100000x64.Idx)
    (h0 : (i 0).val = t.val * 10000 + p.val) (h1 : (i 1).val = j.val) :
    (iblk2 V c 1 t : S10000x64.Idx → EReal) (ix2 p j) = (V c main_v57 : S100000x64.Idx → EReal) i := by
  obtain ⟨-, -, e0, e1, -⟩ := idx_facts t
  show (V c main_v57 : S100000x64.Idx → EReal) (((cfg2.win 1).blk t).view.emb (ix2 p j)) = _
  refine congrArg _ (funext fun a => Fin.ext ?_)
  match a with
  | ⟨0, _⟩ => show win2_1.index t (0 : Fin 2) * 10000 + 1 * p.val = (i 0).val; omega
  | ⟨1, _⟩ => show win2_1.index t (1 : Fin 2) * 64 + 1 * j.val = (i 1).val; omega

/-- The first weight's block is the whole weight. -/
theorem read_x2 (c : Dev nD) (t : Fin cfg2.N) (j : Fin 64) (q : Fin 32) (i : S64x32.Idx)
    (h0 : (i 0).val = j.val) (h1 : (i 1).val = q.val) :
    (iblk2 V c 2 t : S64x32.Idx → EReal) (ix2 j q) = (V c main_arg11 : S64x32.Idx → EReal) i := by
  obtain ⟨-, -, -, -, e0, e1, -⟩ := idx_facts t
  show (V c main_arg11 : S64x32.Idx → EReal) (((cfg2.win 2).blk t).view.emb (ix2 j q)) = _
  refine congrArg _ (funext fun a => Fin.ext ?_)
  match a with
  | ⟨0, _⟩ => show win2_2.index t (0 : Fin 2) * 64 + 1 * j.val = (i 0).val; omega
  | ⟨1, _⟩ => show win2_2.index t (1 : Fin 2) * 32 + 1 * q.val = (i 1).val; omega

/-- The second weight's block is the whole weight. -/
theorem read_x3 (c : Dev nD) (t : Fin cfg2.N) (j : Fin 64) (q : Fin 32) (i : S64x32.Idx)
    (h0 : (i 0).val = j.val) (h1 : (i 1).val = q.val) :
    (iblk2 V c 3 t : S64x32.Idx → EReal) (ix2 j q) = (V c main_arg10 : S64x32.Idx → EReal) i := by
  obtain ⟨-, -, -, -, -, -, e0, e1, -⟩ := idx_facts t
  show (V c main_arg10 : S64x32.Idx → EReal) (((cfg2.win 3).blk t).view.emb (ix2 j q)) = _
  refine congrArg _ (funext fun a => Fin.ext ?_)
  match a with
  | ⟨0, _⟩ => show win2_3.index t (0 : Fin 2) * 64 + 1 * j.val = (i 0).val; omega
  | ⟨1, _⟩ => show win2_3.index t (1 : Fin 2) * 32 + 1 * q.val = (i 1).val; omega

/-- The bias row's block is the whole row. -/
theorem read_x4 (c : Dev nD) (t : Fin cfg2.N) (q : Fin 32) (i : S1x32.Idx)
    (h0 : (i 0).val = 0) (h1 : (i 1).val = q.val) :
    (iblk2 V c 4 t : S1x32.Idx → EReal) (ix2 (0 : Fin 1) q) = (V c main_v58 : S1x32.Idx → EReal) i := by
  obtain ⟨-, -, -, -, -, -, -, -, e0, e1, -⟩ := idx_facts t
  show (V c main_v58 : S1x32.Idx → EReal) (((cfg2.win 4).blk t).view.emb (ix2 (0 : Fin 1) q)) = _
  refine congrArg _ (funext fun a => Fin.ext ?_)
  match a with
  | ⟨0, _⟩ => show win2_4.index t (0 : Fin 2) * 1 + 1 * 0 = (i 0).val; omega
  | ⟨1, _⟩ => show win2_4.index t (1 : Fin 2) * 32 + 1 * q.val = (i 1).val; omega

/-- The layer as one function of the five arrays the region finds: entry (r, q) from row r of the two feature arrays,
    column q of the two weights and entry q of the bias row. -/
def layer (c : Dev nD) : S100000x32.Idx → EReal :=
  twoTermLin (V c main_v19 : S100000x64.Idx → EReal) (V c main_v57 : S100000x64.Idx → EReal)
    (V c main_arg11 : S64x32.Idx → EReal) (V c main_arg10 : S64x32.Idx → EReal)
    (fun q => (V c main_v58 : S1x32.Idx → EReal) (ix2 (0 : Fin 1) q))

/-- What point t writes back is block t of the layer function. -/
theorem flushed_eq (c : Dev nD) (t : Fin cfg2.N) :
    (dat2 (F := Ideal) V c).flushed 5 t = ((cfg2.win 5).blk t).view.read (Elt Ideal) (layer V c) := by
  show (cfg2.win 5).cut (grid2.coords t) ((dat2 V c).after 5 t) = _
  rw [after2_5]
  unfold out2_5
  rw [View.canon_unit_zero hz]
  simp only [View.ld_unit_zero (S := S10000x64) hz, View.ld_unit_zero (S := S64x32) hz, View.ld_unit_zero (S := S1x32) hz]
  funext y
  obtain ⟨p, q, rfl⟩ : ∃ (p : Fin 10000) (q : Fin 32), y = ix2 p q := ⟨y 0, y 1, eq_ix2 y⟩
  obtain ⟨-, -, -, -, -, -, -, -, -, -, e0, e1⟩ := idx_facts t
  show k2_pay1 (F := Ideal) (iblk2 V c 0 t) (iblk2 V c 1 t) (iblk2 V c 2 t) (iblk2 V c 3 t) (iblk2 V c 4 t) (ix2 p q)
      = layer V c (((cfg2.win 5).blk t).view.emb (ix2 p q))
  refine (pay_at _ _ _ _ _ p q).trans ?_
  obtain ⟨i, hi, hr, hq⟩ : ∃ i : S100000x32.Idx, ((cfg2.win 5).blk t).view.emb (ix2 p q) = i
      ∧ (i 0).val = t.val * 10000 + p.val ∧ (i 1).val = q.val :=
    ⟨_, rfl, by show win2_5.index t (0 : Fin 2) * 10000 + 1 * p.val = _; omega,
      by show win2_5.index t (1 : Fin 2) * 32 + 1 * q.val = _; omega⟩
  rw [hi]
  unfold layer twoTermLin
  exact (twoTermAt_congr
    (fun j => read_x0 V c t p j (ix2 (i 0) j) hr rfl) (fun j => read_x2 V c t j q (ix2 j (i 1)) rfl hq)
    (fun j => read_x1 V c t p j (ix2 (i 0) j) hr rfl) (fun j => read_x3 V c t j q (ix2 j (i 1)) rfl hq)
    (read_x4 V c t q (ix2 (0 : Fin 1) (i 1)) rfl hq))

/-- An index of the result is in point t's block iff each coordinate is in the block's range on its axis. -/
theorem mem_blk (t : Fin cfg2.N) (i : S100000x32.Idx) :
    i ∈ ((cfg2.win 5).blk t).view.set ↔ ∀ a : Fin 2, win2_5.index t a * S10000x32.size a ≤ (i a).val
      ∧ (i a).val < win2_5.index t a * S10000x32.size a + S10000x32.size a := by
  show i ∈ ((View.whole main_v59).slice (win2_5.rect t)).set ↔ _
  rw [View.set_slice_whole, Rect.mem_set_unit]
  exact Iff.rfl

/-- The 10 row blocks tile the result: row r lies in the block of point r / 10000. -/
theorem cover (i : S100000x32.Idx) : ∃ t : Fin cfg2.N, (cfg2.win 5).flush t = true ∧ i ∈ ((cfg2.win 5).blk t).view.set := by
  have hN : cfg2.N = 10 := N_2
  have hi0 : (i 0).val < 100000 := (i 0).isLt
  have hi1 : (i 1).val < 32 := (i 1).isLt
  have hlt : (i 0).val / 10000 < cfg2.N := by rw [hN]; omega
  refine ⟨⟨(i 0).val / 10000, hlt⟩, flush2_5 _, ?_⟩
  rw [mem_blk]
  obtain ⟨-, -, -, -, -, -, -, -, -, -, e0, e1⟩ := idx_facts ⟨(i 0).val / 10000, hlt⟩
  have e0' : win2_5.index ⟨(i 0).val / 10000, hlt⟩ (0 : Fin 2) = (i 0).val / 10000 := e0
  intro a
  match a with
  | ⟨0, _⟩ =>
    show win2_5.index ⟨(i 0).val / 10000, hlt⟩ (0 : Fin 2) * 10000 ≤ (i 0).val
      ∧ (i 0).val < win2_5.index ⟨(i 0).val / 10000, hlt⟩ (0 : Fin 2) * 10000 + 10000
    omega
  | ⟨1, _⟩ =>
    show win2_5.index ⟨(i 0).val / 10000, hlt⟩ (1 : Fin 2) * 32 ≤ (i 1).val
      ∧ (i 1).val < win2_5.index ⟨(i 0).val / 10000, hlt⟩ (1 : Fin 2) * 32 + 32
    omega

/-- After the region its result array is the layer function of the five arrays it found, whatever they were. -/
theorem final (c : Dev nD) : (dat2 (F := Ideal) V c).arrAt 5 cfg2.N = layer V c :=
  (dat2 (F := Ideal) V c).arrAt_eq_of_cover 5 (layer V c) (fun t _ => flushed_eq V c t) (cover)

end Cert.KernelIdeal.MovieLayer2

end
-- ==== Proof.Fold3.lean ====
/-
  The kernel's run, third stage: from the second region's exit to the third region's exit. The second region wrote only
  its own result buffer. The third stretch of host operations computes the mean over each movie's rating users of the
  users' hidden features, which are the second region's result, and recasts the third bias as a row: the reference's
  third aggregation, applied to the reference's own first user layer. The third region reads the movies' hidden
  features, still in the first region's result buffer, and leaves the reference's second movie layer of the arguments.
-/
import proofs.«145641_j47596827574948_1_alg».proof.Proof.Fold2
import proofs.«145641_j47596827574948_1_alg».proof.Proof.MovieLayer2
import Idealize.ShloMosaic.Lib.StableHlo.Run
import Idealize.ShloMosaic.Lib.ValueLayout

set_option maxRecDepth 16384

noncomputable section

namespace Cert.KernelIdeal.Fold

open Idealize.ShloMosaic Idealize.ShloMosaic.TcCoe Idealize.SL.Sem Idealize.ShloMosaic.StableHlo Idealize.ShloMosaic.ValueIdx
open Cert.KernelIdeal Cert.KernelIdeal.Gen
open Cert.ReferenceIdeal.Read (val_main_v48 val_main_v49 val_main_v67 val_main_v73)

variable (m : (ℓ : Loc nD τ sig) → Buf (Elt Ideal) ℓ) (ρ : Dev nD → PrngReg) (c : Dev nD)

/-- A stretch of host operations leaves a buffer none of them writes as it found it. -/
local macro "untouched " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

theorem W2_arg10 : W2 m ρ c (Proc.devRef .tc main_arg10) = (m ((c : Thread nD τ).loc main_arg10)) :=
  (W2_of_ne m ρ c main_arg10 (by decide)).trans (by
    refine Eq.trans ?_ (rfl : W0 m ρ c (Proc.devRef .tc main_arg10) = _)
    untouched hostOps0)

theorem W2_arg11 : W2 m ρ c (Proc.devRef .tc main_arg11) = (m ((c : Thread nD τ).loc main_arg11)) :=
  (W2_of_ne m ρ c main_arg11 (by decide)).trans (by
    refine Eq.trans ?_ (rfl : W0 m ρ c (Proc.devRef .tc main_arg11) = _)
    untouched hostOps0)

theorem W2_arg12 : W2 m ρ c (Proc.devRef .tc main_arg12) = (m ((c : Thread nD τ).loc main_arg12)) :=
  (W2_of_ne m ρ c main_arg12 (by decide)).trans (by
    refine Eq.trans ?_ (rfl : W0 m ρ c (Proc.devRef .tc main_arg12) = _)
    untouched hostOps0)

theorem W4_arg2 : W4 m ρ c (Proc.devRef .tc main_arg2) = (m ((c : Thread nD τ).loc main_arg2)) :=
  (W4_of_ne m ρ c main_arg2 (by decide)).trans ((by untouched hostOps1 : W3 m ρ c (Proc.devRef .tc main_arg2) = W2 m ρ c (Proc.devRef .tc main_arg2)).trans (W2_arg2 m ρ c))

theorem W4_arg3 : W4 m ρ c (Proc.devRef .tc main_arg3) = (m ((c : Thread nD τ).loc main_arg3)) :=
  (W4_of_ne m ρ c main_arg3 (by decide)).trans ((by untouched hostOps1 : W3 m ρ c (Proc.devRef .tc main_arg3) = W2 m ρ c (Proc.devRef .tc main_arg3)).trans (W2_arg3 m ρ c))

theorem W4_arg10 : W4 m ρ c (Proc.devRef .tc main_arg10) = (m ((c : Thread nD τ).loc main_arg10)) :=
  (W4_of_ne m ρ c main_arg10 (by decide)).trans ((by untouched hostOps1 : W3 m ρ c (Proc.devRef .tc main_arg10) = W2 m ρ c (Proc.devRef .tc main_arg10)).trans (W2_arg10 m ρ c))

theorem W4_arg11 : W4 m ρ c (Proc.devRef .tc main_arg11) = (m ((c : Thread nD τ).loc main_arg11)) :=
  (W4_of_ne m ρ c main_arg11 (by decide)).trans ((by untouched hostOps1 : W3 m ρ c (Proc.devRef .tc main_arg11) = W2 m ρ c (Proc.devRef .tc main_arg11)).trans (W2_arg11 m ρ c))

theorem W4_arg12 : W4 m ρ c (Proc.devRef .tc main_arg12) = (m ((c : Thread nD τ).loc main_arg12)) :=
  (W4_of_ne m ρ c main_arg12 (by decide)).trans ((by untouched hostOps1 : W3 m ρ c (Proc.devRef .tc main_arg12) = W2 m ρ c (Proc.devRef .tc main_arg12)).trans (W2_arg12 m ρ c))

/-- The third aggregation, as the third region finds it, is the reference's third aggregation of the arguments. -/
theorem agg_u2m_2 : W5 m ρ c (Proc.devRef .tc main_v57) = val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) := by
  after_results_simp
  rw [user_hidden, W4_arg2, W4_arg3]
  rfl

/-- The third bias, recast as a row. -/
theorem bias_row_3 : W5 m ρ c (Proc.devRef .tc main_v58)
    = shapeCast S1x32 ((m ((c : Thread nD τ).loc main_arg12)) : S32.Idx → EReal) Facts₀.shapeCasts_S32_S1x32 := by
  after_results_simp
  rw [W4_arg12]
  rfl

theorem W5_v19 : W5 m ρ c (Proc.devRef .tc main_v19) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((by untouched hostOps2 : W5 m ρ c (Proc.devRef .tc main_v19) = W4 m ρ c (Proc.devRef .tc main_v19)).trans (W4_v19 m ρ c))
theorem W5_arg11 : W5 m ρ c (Proc.devRef .tc main_arg11) = (m ((c : Thread nD τ).loc main_arg11)) :=
  ((by untouched hostOps2 : W5 m ρ c (Proc.devRef .tc main_arg11) = W4 m ρ c (Proc.devRef .tc main_arg11)).trans (W4_arg11 m ρ c))
theorem W5_arg10 : W5 m ρ c (Proc.devRef .tc main_arg10) = (m ((c : Thread nD τ).loc main_arg10)) :=
  ((by untouched hostOps2 : W5 m ρ c (Proc.devRef .tc main_arg10) = W4 m ρ c (Proc.devRef .tc main_arg10)).trans (W4_arg10 m ρ c))

/-- After the third region its result buffer holds the reference's second movie layer of the arguments. -/
theorem movie_out : W6 m ρ c (Proc.devRef .tc main_v59)
    = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W6_arr m ρ c 5).trans ((MovieLayer2.final (V5 m ρ) c).trans ?_)
  rw [Cert.ReferenceIdeal.Layers.layer_v73]
  unfold MovieLayer2.layer
  dsimp only [V5]
  rw [W5_v19, agg_u2m_2, W5_arg11, W5_arg10, bias_row_3]
  refine congrArg _ (funext fun q => ?_)
  exact shapeCast_a_1a_apply _ _ (0 : Fin 1) q

/-- The second region's result is still in place at the third region's exit. -/
theorem W6_v39 : W6 m ρ c (Proc.devRef .tc main_v39) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) :=
  (W6_of_ne m ρ c main_v39 (by decide)).trans ((by untouched hostOps2 : W5 m ρ c (Proc.devRef .tc main_v39) = W4 m ρ c (Proc.devRef .tc main_v39)).trans (user_hidden m ρ c))

/-- The third region only read the movies' hidden features: they are still in place at its exit. -/
theorem W6_v19 : W6 m ρ c (Proc.devRef .tc main_v19) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((W6_arr m ρ c 0).trans (((dat2 (V5 m ρ) c).arrAt_in 0 rfl _).trans (A_eq2 (V5 m ρ) c 0))).trans (W5_v19 m ρ c)

end Cert.KernelIdeal.Fold

end
-- ==== Proof.UserLayer2.lean ====
/-
  Layer 2, user side: the fourth pipelined region, read as a value.
  The region walks 20 grid points; point t stages rows 10000 t .. 10000 t + 9999 of the node features (64 columns)
  and of the aggregated neighbour features (64 columns), the two weight matrices and the bias row whole, and writes
  back rows 10000 t .. 10000 t + 9999 of the 200000 x 32 result. Entry (p, q) of what it writes is
  (row p of the feature block) · (column q of the first weight) + (row p of the neighbour block) · (column q of the
  second weight) + bias q. A row of a block is a row of its array, so
  every written entry is the same function of the five arrays as the region finds them, evaluated at the entry's own
  row and column; the 20 row blocks tile the result; hence the whole result array is that function.
-/
import proofs.«145641_j47596827574948_1_alg».proof.Proof.Gen.KernelIdeal.Frame
import proofs.«145641_j47596827574948_1_alg».proof.Proof.KernelDots
import proofs.«145641_j47596827574948_1_alg».proof.Proof.LibTwoTermLayer
import Idealize.ShloMosaic.Lib.Pipeline.Value

set_option maxRecDepth 16384

noncomputable section

namespace Cert.KernelIdeal.UserLayer2

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- One entry of what the body stores, from the five blocks it loaded: that sum. -/
theorem pay_at (x0 : FVec Ideal S10000x64 .f32) (x1 : FVec Ideal S10000x64 .f32) (x2 : FVec Ideal S64x32 .f32)
    (x3 : FVec Ideal S64x32 .f32) (x4 : FVec Ideal S1x32 .f32) (p : Fin 10000) (q : Fin 32) :
    k3_pay1 (F := Ideal) x0 x1 x2 x3 x4 (ix2 p q) = twoTermAt x0 x1 x2 x3 (fun q => x4 (ix2 (0 : Fin 1) q)) p q := by
  unfold k3_pay1
  rw [shapeCast_self, shapeCast_self, shapeCast_self]
  exact twoTerm_matmul_apply Dots.plain_S10000x64_S64x32_S10000x32 Dots.plain_S10000x64_S64x32_S10000x32 _ _ _ _ _ _ p q

/-- The index maps over the grid: the two row-blocked inputs and the output sit at row block t, column block 0; the
    weights and the bias row at block (0, 0). -/
theorem idx_facts : ∀ t : Fin cfg3.N,
      win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row p of the feature block at point t is row 10000 t + p of the feature array. -/
theorem read_x0 (c : Dev nD) (t : Fin cfg3.N) (p : Fin 10000) (j : Fin 64) (i : S200000x64.Idx)
    (h0 : (i 0).val = t.val * 10000 + p.val) (h1 : (i 1).val = j.val) :
    (iblk3 V c 0 t : S10000x64.Idx → EReal) (ix2 p j) = (V c main_v39 : S200000x64.Idx → EReal) i := by
  obtain ⟨e0, e1, -⟩ := idx_facts t
  show (V c main_v39 : S200000x64.Idx → EReal) (((cfg3.win 0).blk t).view.emb (ix2 p j)) = _
  refine congrArg _ (funext fun a => Fin.ext ?_)
  match a with
  | ⟨0, _⟩ => show win3_0.index t (0 : Fin 2) * 10000 + 1 * p.val = (i 0).val; omega
  | ⟨1, _⟩ => show win3_0.index t (1 : Fin 2) * 64 + 1 * j.val = (i 1).val; omega

/-- Row p of the neighbour block at point t is row 10000 t + p of the aggregated array. -/
theorem read_x1 (c : Dev nD) (t : Fin cfg3.N) (p : Fin 10000) (j : Fin 64) (i : S200000x64.Idx)
    (h0 : (i 0).val = t.val * 10000 + p.val) (h1 : (i 1).val = j.val) :
    (iblk3 V c 1 t : S10000x64.Idx → EReal) (ix2 p j) = (V c main_v77 : S200000x64.Idx → EReal) i := by
  obtain ⟨-, -, e0, e1, -⟩ := idx_facts t
  show (V c main_v77 : S200000x64.Idx → EReal) (((cfg3.win 1).blk t).view.emb (ix2 p j)) = _
  refine congrArg _ (funext fun a => Fin.ext ?_)
  match a with
  | ⟨0, _⟩ => show win3_1.index t (0 : Fin 2) * 10000 + 1 * p.val = (i 0).val; omega
  | ⟨1, _⟩ => show win3_1.index t (1 : Fin 2) * 64 + 1 * j.val = (i 1).val; omega

/-- The first weight's block is the whole weight. -/
theorem read_x2 (c : Dev nD) (t : Fin cfg3.N) (j : Fin 64) (q : Fin 32) (i : S64x32.Idx)
    (h0 : (i 0).val = j.val) (h1 : (i 1).val = q.val) :
    (iblk3 V c 2 t : S64x32.Idx → EReal) (ix2 j q) = (V c main_arg14 : S64x32.Idx → EReal) i := by
  obtain ⟨-, -, -, -, e0, e1, -⟩ := idx_facts t
  show (V c main_arg14 : S64x32.Idx → EReal) (((cfg3.win 2).blk t).view.emb (ix2 j q)) = _
  refine congrArg _ (funext fun a => Fin.ext ?_)
  match a with
  | ⟨0, _⟩ => show win3_2.index t (0 : Fin 2) * 64 + 1 * j.val = (i 0).val; omega
  | ⟨1, _⟩ => show win3_2.index t (1 : Fin 2) * 32 + 1 * q.val = (i 1).val; omega

/-- The second weight's block is the whole weight. -/
theorem read_x3 (c : Dev nD) (t : Fin cfg3.N) (j : Fin 64) (q : Fin 32) (i : S64x32.Idx)
    (h0 : (i 0).val = j.val) (h1 : (i 1).val = q.val) :
    (iblk3 V c 3 t : S64x32.Idx → EReal) (ix2 j q) = (V c main_arg13 : S64x32.Idx → EReal) i := by
  obtain ⟨-, -, -, -, -, -, e0, e1, -⟩ := idx_facts t
  show (V c main_arg13 : S64x32.Idx → EReal) (((cfg3.win 3).blk t).view.emb (ix2 j q)) = _
  refine congrArg _ (funext fun a => Fin.ext ?_)
  match a with
  | ⟨0, _⟩ => show win3_3.index t (0 : Fin 2) * 64 + 1 * j.val = (i 0).val; omega
  | ⟨1, _⟩ => show win3_3.index t (1 : Fin 2) * 32 + 1 * q.val = (i 1).val; omega

/-- The bias row's block is the whole row. -/
theorem read_x4 (c : Dev nD) (t : Fin cfg3.N) (q : Fin 32) (i : S1x32.Idx)
    (h0 : (i 0).val = 0) (h1 : (i 1).val = q.val) :
    (iblk3 V c 4 t : S1x32.Idx → EReal) (ix2 (0 : Fin 1) q) = (V c main_v78 : S1x32.Idx → EReal) i := by
  obtain ⟨-, -, -, -, -, -, -, -, e0, e1, -⟩ := idx_facts t
  show (V c main_v78 : S1x32.Idx → EReal) (((cfg3.win 4).blk t).view.emb (ix2 (0 : Fin 1) q)) = _
  refine congrArg _ (funext fun a => Fin.ext ?_)
  match a with
  | ⟨0, _⟩ => show win3_4.index t (0 : Fin 2) * 1 + 1 * 0 = (i 0).val; omega
  | ⟨1, _⟩ => show win3_4.index t (1 : Fin 2) * 32 + 1 * q.val = (i 1).val; omega

/-- The layer as one function of the five arrays the region finds: entry (r, q) from row r of the two feature arrays,
    column q of the two weights and entry q of the bias row. -/
def layer (c : Dev nD) : S200000x32.Idx → EReal :=
  twoTermLin (V c main_v39 : S200000x64.Idx → EReal) (V c main_v77 : S200000x64.Idx → EReal)
    (V c main_arg14 : S64x32.Idx → EReal) (V c main_arg13 : S64x32.Idx → EReal)
    (fun q => (V c main_v78 : S1x32.Idx → EReal) (ix2 (0 : Fin 1) q))

/-- What point t writes back is block t of the layer function. -/
theorem flushed_eq (c : Dev nD) (t : Fin cfg3.N) :
    (dat3 (F := Ideal) V c).flushed 5 t = ((cfg3.win 5).blk t).view.read (Elt Ideal) (layer V c) := by
  show (cfg3.win 5).cut (grid3.coords t) ((dat3 V c).after 5 t) = _
  rw [after3_5]
  unfold out3_5
  rw [View.canon_unit_zero hz]
  simp only [View.ld_unit_zero (S := S10000x64) hz, View.ld_unit_zero (S := S64x32) hz, View.ld_unit_zero (S := S1x32) hz]
  funext y
  obtain ⟨p, q, rfl⟩ : ∃ (p : Fin 10000) (q : Fin 32), y = ix2 p q := ⟨y 0, y 1, eq_ix2 y⟩
  obtain ⟨-, -, -, -, -, -, -, -, -, -, e0, e1⟩ := idx_facts t
  show k3_pay1 (F := Ideal) (iblk3 V c 0 t) (iblk3 V c 1 t) (iblk3 V c 2 t) (iblk3 V c 3 t) (iblk3 V c 4 t) (ix2 p q)
      = layer V c (((cfg3.win 5).blk t).view.emb (ix2 p q))
  refine (pay_at _ _ _ _ _ p q).trans ?_
  obtain ⟨i, hi, hr, hq⟩ : ∃ i : S200000x32.Idx, ((cfg3.win 5).blk t).view.emb (ix2 p q) = i
      ∧ (i 0).val = t.val * 10000 + p.val ∧ (i 1).val = q.val :=
    ⟨_, rfl, by show win3_5.index t (0 : Fin 2) * 10000 + 1 * p.val = _; omega,
      by show win3_5.index t (1 : Fin 2) * 32 + 1 * q.val = _; omega⟩
  rw [hi]
  unfold layer twoTermLin
  exact (twoTermAt_congr
    (fun j => read_x0 V c t p j (ix2 (i 0) j) hr rfl) (fun j => read_x2 V c t j q (ix2 j (i 1)) rfl hq)
    (fun j => read_x1 V c t p j (ix2 (i 0) j) hr rfl) (fun j => read_x3 V c t j q (ix2 j (i 1)) rfl hq)
    (read_x4 V c t q (ix2 (0 : Fin 1) (i 1)) rfl hq))

/-- An index of the result is in point t's block iff each coordinate is in the block's range on its axis. -/
theorem mem_blk (t : Fin cfg3.N) (i : S200000x32.Idx) :
    i ∈ ((cfg3.win 5).blk t).view.set ↔ ∀ a : Fin 2, win3_5.index t a * S10000x32.size a ≤ (i a).val
      ∧ (i a).val < win3_5.index t a * S10000x32.size a + S10000x32.size a := by
  show i ∈ ((View.whole main_v79).slice (win3_5.rect t)).set ↔ _
  rw [View.set_slice_whole, Rect.mem_set_unit]
  exact Iff.rfl

/-- The 20 row blocks tile the result: row r lies in the block of point r / 10000. -/
theorem cover (i : S200000x32.Idx) : ∃ t : Fin cfg3.N, (cfg3.win 5).flush t = true ∧ i ∈ ((cfg3.win 5).blk t).view.set := by
  have hN : cfg3.N = 20 := N_3
  have hi0 : (i 0).val < 200000 := (i 0).isLt
  have hi1 : (i 1).val < 32 := (i 1).isLt
  have hlt : (i 0).val / 10000 < cfg3.N := by rw [hN]; omega
  refine ⟨⟨(i 0).val / 10000, hlt⟩, flush3_5 _, ?_⟩
  rw [mem_blk]
  obtain ⟨-, -, -, -, -, -, -, -, -, -, e0, e1⟩ := idx_facts ⟨(i 0).val / 10000, hlt⟩
  have e0' : win3_5.index ⟨(i 0).val / 10000, hlt⟩ (0 : Fin 2) = (i 0).val / 10000 := e0
  intro a
  match a with
  | ⟨0, _⟩ =>
    show win3_5.index ⟨(i 0).val / 10000, hlt⟩ (0 : Fin 2) * 10000 ≤ (i 0).val
      ∧ (i 0).val < win3_5.index ⟨(i 0).val / 10000, hlt⟩ (0 : Fin 2) * 10000 + 10000
    omega
  | ⟨1, _⟩ =>
    show win3_5.index ⟨(i 0).val / 10000, hlt⟩ (1 : Fin 2) * 32 ≤ (i 1).val
      ∧ (i 1).val < win3_5.index ⟨(i 0).val / 10000, hlt⟩ (1 : Fin 2) * 32 + 32
    omega

/-- After the region its result array is the layer function of the five arrays it found, whatever they were. -/
theorem final (c : Dev nD) : (dat3 (F := Ideal) V c).arrAt 5 cfg3.N = layer V c :=
  (dat3 (F := Ideal) V c).arrAt_eq_of_cover 5 (layer V c) (fun t _ => flushed_eq V c t) (cover)

end Cert.KernelIdeal.UserLayer2

end
-- ==== Proof.Fold4.lean ====
/-
  The kernel's run, last stage: from the third region's exit to the return. The fourth stretch of host operations
  computes the mean over each user's rated movies of the movies' hidden features, still in the first region's result
  buffer, and recasts the fourth bias as a row: the reference's fourth aggregation, applied to the reference's own
  first movie layer. The fourth region reads the users' hidden features from the second region's result buffer and
  leaves the reference's second user layer. The last host operation joins the two second-layer results, users first:
  the reference's result, as a function of the sixteen arguments.
-/
import proofs.«145641_j47596827574948_1_alg».proof.Proof.Fold3
import proofs.«145641_j47596827574948_1_alg».proof.Proof.UserLayer2
import Idealize.ShloMosaic.Lib.StableHlo.Run
import Idealize.ShloMosaic.Lib.ValueLayout

set_option maxRecDepth 16384

noncomputable section

namespace Cert.KernelIdeal.Fold

open Idealize.ShloMosaic Idealize.ShloMosaic.TcCoe Idealize.SL.Sem Idealize.ShloMosaic.StableHlo Idealize.ShloMosaic.ValueIdx
open Cert.KernelIdeal Cert.KernelIdeal.Gen
open Cert.ReferenceIdeal.Read (val_main_v48 val_main_v49 val_main_v73 val_main_v91 val_main_v97 val_main_v98)

variable (m : (ℓ : Loc nD τ sig) → Buf (Elt Ideal) ℓ) (ρ : Dev nD → PrngReg) (c : Dev nD)

/-- A stretch of host operations leaves a buffer none of them writes as it found it. -/
local macro "untouched " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

theorem W2_arg13 : W2 m ρ c (Proc.devRef .tc main_arg13) = (m ((c : Thread nD τ).loc main_arg13)) :=
  (W2_of_ne m ρ c main_arg13 (by decide)).trans (by
    refine Eq.trans ?_ (rfl : W0 m ρ c (Proc.devRef .tc main_arg13) = _)
    untouched hostOps0)

theorem W2_arg14 : W2 m ρ c (Proc.devRef .tc main_arg14) = (m ((c : Thread nD τ).loc main_arg14)) :=
  (W2_of_ne m ρ c main_arg14 (by decide)).trans (by
    refine Eq.trans ?_ (rfl : W0 m ρ c (Proc.devRef .tc main_arg14) = _)
    untouched hostOps0)

theorem W2_arg15 : W2 m ρ c (Proc.devRef .tc main_arg15) = (m ((c : Thread nD τ).loc main_arg15)) :=
  (W2_of_ne m ρ c main_arg15 (by decide)).trans (by
    refine Eq.trans ?_ (rfl : W0 m ρ c (Proc.devRef .tc main_arg15) = _)
    untouched hostOps0)

theorem W4_arg13 : W4 m ρ c (Proc.devRef .tc main_arg13) = (m ((c : Thread nD τ).loc main_arg13)) :=
  (W4_of_ne m ρ c main_arg13 (by decide)).trans ((by untouched hostOps1 : W3 m ρ c (Proc.devRef .tc main_arg13) = W2 m ρ c (Proc.devRef .tc main_arg13)).trans (W2_arg13 m ρ c))

theorem W4_arg14 : W4 m ρ c (Proc.devRef .tc main_arg14) = (m ((c : Thread nD τ).loc main_arg14)) :=
  (W4_of_ne m ρ c main_arg14 (by decide)).trans ((by untouched hostOps1 : W3 m ρ c (Proc.devRef .tc main_arg14) = W2 m ρ c (Proc.devRef .tc main_arg14)).trans (W2_arg14 m ρ c))

theorem W4_arg15 : W4 m ρ c (Proc.devRef .tc main_arg15) = (m ((c : Thread nD τ).loc main_arg15)) :=
  (W4_of_ne m ρ c main_arg15 (by decide)).trans ((by untouched hostOps1 : W3 m ρ c (Proc.devRef .tc main_arg15) = W2 m ρ c (Proc.devRef .tc main_arg15)).trans (W2_arg15 m ρ c))

theorem W6_arg2 : W6 m ρ c (Proc.devRef .tc main_arg2) = (m ((c : Thread nD τ).loc main_arg2)) :=
  (W6_of_ne m ρ c main_arg2 (by decide)).trans ((by untouched hostOps2 : W5 m ρ c (Proc.devRef .tc main_arg2) = W4 m ρ c (Proc.devRef .tc main_arg2)).trans (W4_arg2 m ρ c))

theorem W6_arg3 : W6 m ρ c (Proc.devRef .tc main_arg3) = (m ((c : Thread nD τ).loc main_arg3)) :=
  (W6_of_ne m ρ c main_arg3 (by decide)).trans ((by untouched hostOps2 : W5 m ρ c (Proc.devRef .tc main_arg3) = W4 m ρ c (Proc.devRef .tc main_arg3)).trans (W4_arg3 m ρ c))

theorem W6_arg13 : W6 m ρ c (Proc.devRef .tc main_arg13) = (m ((c : Thread nD τ).loc main_arg13)) :=
  (W6_of_ne m ρ c main_arg13 (by decide)).trans ((by untouched hostOps2 : W5 m ρ c (Proc.devRef .tc main_arg13) = W4 m ρ c (Proc.devRef .tc main_arg13)).trans (W4_arg13 m ρ c))

theorem W6_arg14 : W6 m ρ c (Proc.devRef .tc main_arg14) = (m ((c : Thread nD τ).loc main_arg14)) :=
  (W6_of_ne m ρ c main_arg14 (by decide)).trans ((by untouched hostOps2 : W5 m ρ c (Proc.devRef .tc main_arg14) = W4 m ρ c (Proc.devRef .tc main_arg14)).trans (W4_arg14 m ρ c))

theorem W6_arg15 : W6 m ρ c (Proc.devRef .tc main_arg15) = (m ((c : Thread nD τ).loc main_arg15)) :=
  (W6_of_ne m ρ c main_arg15 (by decide)).trans ((by untouched hostOps2 : W5 m ρ c (Proc.devRef .tc main_arg15) = W4 m ρ c (Proc.devRef .tc main_arg15)).trans (W4_arg15 m ρ c))

/-- The fourth aggregation, as the fourth region finds it, is the reference's fourth aggregation of the arguments. -/
theorem agg_m2u_2 : W7 m ρ c (Proc.devRef .tc main_v77) = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  after_results_simp
  rw [W6_v19, W6_arg3, W6_arg2]
  rfl

/-- The fourth bias, recast as a row. -/
theorem bias_row_4 : W7 m ρ c (Proc.devRef .tc main_v78)
    = shapeCast S1x32 ((m ((c : Thread nD τ).loc main_arg15)) : S32.Idx → EReal) Facts₀.shapeCasts_S32_S1x32 := by
  after_results_simp
  rw [W6_arg15]
  rfl

theorem W7_v39 : W7 m ρ c (Proc.devRef .tc main_v39) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) :=
  ((by untouched hostOps3 : W7 m ρ c (Proc.devRef .tc main_v39) = W6 m ρ c (Proc.devRef .tc main_v39)).trans (W6_v39 m ρ c))
theorem W7_arg14 : W7 m ρ c (Proc.devRef .tc main_arg14) = (m ((c : Thread nD τ).loc main_arg14)) :=
  ((by untouched hostOps3 : W7 m ρ c (Proc.devRef .tc main_arg14) = W6 m ρ c (Proc.devRef .tc main_arg14)).trans (W6_arg14 m ρ c))
theorem W7_arg13 : W7 m ρ c (Proc.devRef .tc main_arg13) = (m ((c : Thread nD τ).loc main_arg13)) :=
  ((by untouched hostOps3 : W7 m ρ c (Proc.devRef .tc main_arg13) = W6 m ρ c (Proc.devRef .tc main_arg13)).trans (W6_arg13 m ρ c))

/-- After the fourth region its result buffer holds the reference's second user layer of the arguments. -/
theorem user_out : W8 m ρ c (Proc.devRef .tc main_v79)
    = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg13)) (m ((c : Thread nD τ).loc main_arg14)) (m ((c : Thread nD τ).loc main_arg15)) := by
  refine (W8_arr m ρ c 5).trans ((UserLayer2.final (V7 m ρ) c).trans ?_)
  rw [Cert.ReferenceIdeal.Layers.layer_v97]
  unfold UserLayer2.layer
  dsimp only [V7]
  rw [W7_v39, agg_m2u_2, W7_arg14, W7_arg13, bias_row_4]
  refine congrArg _ (funext fun q => ?_)
  exact shapeCast_a_1a_apply _ _ (0 : Fin 1) q

/-- The third region's result is still in place at the fourth region's exit. -/
theorem W8_v59 : W8 m ρ c (Proc.devRef .tc main_v59)
    = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (W8_of_ne m ρ c main_v59 (by decide)).trans ((by untouched hostOps3 : W7 m ρ c (Proc.devRef .tc main_v59) = W6 m ρ c (Proc.devRef .tc main_v59)).trans (movie_out m ρ c))

/-- AT THE RETURN the result buffer holds the reference's result function of the sixteen argument arrays. -/
theorem result : W9 m ρ c (Proc.devRef .tc main_v80)
    = val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  after_results_simp
  rw [user_out, W8_v59]
  rfl

end Cert.KernelIdeal.Fold

end
-- ==== Proof.lean ====
/-
  A two-layer GraphSAGE over a bipartite graph of users and movies: the certificate's five claims.

  Both programs compute, per layer and per node type,
      h_self · W_self + mean over the neighbours of h_neigh · W_neigh + b        (then max(·, 0) in layer 1),
  the neighbour mean being a gather along the edge list, a scatter-add to the destination nodes and a division by the
  clamped degree, and join the two second-layer results, users first. The reference does every step on the host. The
  kernel does the four aggregations on the host, by the very same operations, and each of the four combines in a
  pipelined region that walks the node axis in blocks of 10000 rows, with the products on the matrix unit.

  At the extended reals a region's result array is the layer function of the arrays it reads (a block's row is the
  array's row, the row blocks tile the result, a matrix-unit product into zeros is the finite sum the host's contraction
  is, a change of float format changes nothing), so walking the kernel's run from the launch to the return gives, in its
  result buffer, the reference's own result function applied to the kernel's argument arrays. The aggregations are
  carried as they stand: the two programs apply the same host operations to equal arrays, and nothing about a
  gather or a scatter is used. No finiteness of the inputs is needed either: the two sides are the same sums in
  the same order.

  The frames of the kernel and of its idealization are the generated ones; the reference's frame is its generated run with
  the result dropped; the idealization changed no operation, so there is nothing to preserve.
-/
import proofs.«145641_j47596827574948_1_alg».proof.Defs
import proofs.«145641_j47596827574948_1_alg».proof.Proof.Gen.Kernel
import proofs.«145641_j47596827574948_1_alg».proof.Proof.Gen.Kernel.Frame
import proofs.«145641_j47596827574948_1_alg».proof.Proof.Gen.KernelIdeal
import proofs.«145641_j47596827574948_1_alg».proof.Proof.Gen.KernelIdeal.Frame
import proofs.«145641_j47596827574948_1_alg».proof.Proof.Gen.ReferenceIdeal
import proofs.«145641_j47596827574948_1_alg».proof.Proof.Gen.Pre_finite_inputs
import proofs.«145641_j47596827574948_1_alg».proof.Proof.Gen.ReferenceIdeal.Read
import proofs.«145641_j47596827574948_1_alg».proof.Proof.KernelRun
import proofs.«145641_j47596827574948_1_alg».proof.Proof.Fold4
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run names its result and keeps its arguments; the frame is the second half. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end with the reference's result function of the kernel's argument arrays in their result buffers: the
    kernel's by the walk through its four regions, the reference's by its generated run and the agreement of the two
    memories on the sixteen arguments. -/
theorem algebraic : Cert.algebraic_KernelIdeal_ReferenceIdeal := by
  intro m ρ m' ρ' _ hagree
  refine ⟨fun c => Cert.ReferenceIdeal.Read.val_main_v98 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Fold.result m ρ c), (h c).2⟩)
      (Cert.KernelIdeal.RunAll.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15⟩ := hagree c
    rw [Cert.ReferenceIdeal.Read.val_main_v98_eq, h0, h1, h2, h3, h4, h5, h6, h7, h8, h9, h10, h11, h12, h13, h14, h15]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
